-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x64 : Shape := ⟨2, ![256, 64]⟩
abbrev S128x128 : Shape := ⟨2, ![128, 128]⟩
abbrev S128 : Shape := ⟨1, ![128]⟩
abbrev S192x64 : Shape := ⟨2, ![192, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S192x64 .f32) (main_arg9 : FVec F S64 .f32) (main_arg10 : FVec F S64x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : IVec S50000 32) (main_arg3 : FVec F S256x64 .f32) (main_arg4 : FVec F S128x128 .f32) (main_arg5 : FVec F S128 .f32) (main_arg6 : FVec F S128x128 .f32) (main_arg7 : FVec F S128 .f32) (main_arg8 : FVec F S192x64 .f32) (main_arg9 : FVec F S64 .f32) (main_arg10 : FVec F S64x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x64 : Shape := ⟨2, ![256, 64]⟩
abbrev S128x128 : Shape := ⟨2, ![128, 128]⟩
abbrev S128 : Shape := ⟨1, ![128]⟩
abbrev S192x64 : Shape := ⟨2, ![192, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S5000x128 : Shape := ⟨2, ![5000, 128]⟩
abbrev S800000x1 : Shape := ⟨2, ![800000, 1]⟩
abbrev S800000x128 : Shape := ⟨2, ![800000, 128]⟩
abbrev S50000x1 : Shape := ⟨2, ![50000, 1]⟩
abbrev S5000x1 : Shape := ⟨2, ![5000, 1]⟩
abbrev S256 : Shape := ⟨1, ![256]⟩
abbrev S256x128 : Shape := ⟨2, ![256, 128]⟩
abbrev S256x1 : Shape := ⟨2, ![256, 1]⟩
abbrev S256x192 : Shape := ⟨2, ![256, 192]⟩
abbrev S1x64 : Shape := ⟨2, ![1, 64]⟩
abbrev S1x1 : Shape := ⟨2, ![1, 1]⟩

abbrev nBuf : Space → Nat
  | .hbm => 143
  | .vmem => 38
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x64, .f32⟩
  | 4 => ⟨S128x128, .f32⟩
  | 5 => ⟨S128, .f32⟩
  | 6 => ⟨S128x128, .f32⟩
  | 7 => ⟨S128, .f32⟩
  | 8 => ⟨S192x64, .f32⟩
  | 9 => ⟨S64, .f32⟩
  | 10 => ⟨S64x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S128, .f32⟩
  | 18 => ⟨S1x128, .f32⟩
  | 19 => ⟨S50000x128, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S1x128, .f32⟩
  | 68 => ⟨S50000x128, .f32⟩
  | 69 => ⟨S_, .f32⟩
  | 70 => ⟨S128, .f32⟩
  | 71 => ⟨S1x128, .f32⟩
  | 72 => ⟨S50000x128, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S800000x1, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S50000, .f32⟩
  | 119 => ⟨S50000x1, .f32⟩
  | 120 => ⟨S1x128, .f32⟩
  | 121 => ⟨S50000x128, .f32⟩
  | 122 => ⟨S_, .f32⟩
  | 123 => ⟨S50000, .f32⟩
  | 124 => ⟨S_, .f32⟩
  | 125 => ⟨S256, .f32⟩
  | 126 => ⟨S50000x1, .i32⟩
  | 127 => ⟨S256, .f32⟩
  | _ => ⟨S50000x128, .f32⟩

abbrev hbmTy0_1 (i : Nat) : BufTy := match i % 128 with
  | 0 => ⟨S_, .f32⟩
  | 1 => ⟨S256x128, .f32⟩
  | 2 => ⟨S50000x1, .i32⟩
  | 3 => ⟨S256x128, .f32⟩
  | 4 => ⟨S_, .f32⟩
  | 5 => ⟨S256, .f32⟩
  | 6 => ⟨S256, .f32⟩
  | 7 => ⟨S256x1, .f32⟩
  | 8 => ⟨S256x128, .f32⟩
  | 9 => ⟨S256x128, .f32⟩
  | 10 => ⟨S256x192, .f32⟩
  | 11 => ⟨S1x64, .f32⟩
  | 12 => ⟨S256x64, .f32⟩
  | 13 => ⟨S1x1, .f32⟩
  | 14 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S256x192, .f32⟩
  | .local _ .vmem, ⟨31, _⟩ => ⟨S192x64, .f32⟩
  | .local _ .vmem, ⟨32, _⟩ => ⟨S1x64, .f32⟩
  | .local _ .vmem, ⟨33, _⟩ => ⟨S256x64, .f32⟩
  | .local _ .vmem, ⟨34, _⟩ => ⟨S256x64, .f32⟩
  | .local _ .vmem, ⟨35, _⟩ => ⟨S64x1, .f32⟩
  | .local _ .vmem, ⟨36, _⟩ => ⟨S1x1, .f32⟩
  | .local _ .vmem, ⟨37, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_22 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc5_sem0_0 : DmaSem sig := 34
abbrev cc5_sem1_0 : DmaSem sig := 35
abbrev cc5_sem2_0 : DmaSem sig := 36
abbrev cc5_sem3_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S256x192 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S256x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S64x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S256 : S_.BroadcastsInDim S256 (![] : Fin 0 → Fin S256.rank)
  bcast_S50000_S50000x1_0 : S50000.BroadcastsInDim S50000x1 (![0] : Fin 1 → Fin S50000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x64_S256x192_d1 : Shape.Concatenates [S256x128, S256x64] S256x192 1
  shapeCasts_S64_S1x64 : S64.ShapeCasts S1x64
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  shapeCasts_S1_S1x1 : S1.ShapeCasts S1x1
  shapeCasts_S256x64_S256x64 : S256x64.ShapeCasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x192_S192x64_S256x64_1_0_0_1_n_n_wf : DotDims.WF S256x192 S192x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S256x192.size a ≤ S256x192.size a
  hwx4_0 : ∀ i : grid4.Coords, EltTy.bits .f32 = 32 ∨ (Rect.block (s := S256x192) S256x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x64.size a ≤ S192x64.size a
  hwx4_1 : ∀ i : grid4.Coords, EltTy.bits .f32 = 32 ∨ (Rect.block (s := S192x64) S192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S256x64.size a ≤ S256x64.size a
  hwx4_3 : ∀ i : grid4.Coords, EltTy.bits .f32 = 32 ∨ (Rect.block (s := S256x64) S256x64.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S256x64.size a ≤ S256x64.size a
  hwx5_0 : ∀ i : grid5.Coords, EltTy.bits .f32 = 32 ∨ (Rect.block (s := S256x64) S256x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x1.size a ≤ S64x1.size a
  hwx5_1 : ∀ i : grid5.Coords, EltTy.bits .f32 = 32 ∨ (Rect.block (s := S64x1) S64x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S256x1.size a ≤ S256x1.size a
  hwx5_3 : ∀ i : grid5.Coords, EltTy.bits .f32 = 32 ∨ (Rect.block (s := S256x1) S256x1.size (cc5_transform_3 i) (hinb5_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x192_S192x64_S256x64_1_0_0_1_n_n : DotDims S256x192 S192x64 S256x64 where
  lhsContracting := [1]
  rhsContracting := [0]
  lhsNonContracting := [0]
  rhsNonContracting := [1]
  lhsBatch := []
  rhsBatch := []
  wf := dot_S256x192_S192x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v100) S256x192.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S256x64.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v102) S256x64.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S64x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S256x1.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x64 : Shape := ⟨2, ![256, 64]⟩
abbrev S128x128 : Shape := ⟨2, ![128, 128]⟩
abbrev S128 : Shape := ⟨1, ![128]⟩
abbrev S192x64 : Shape := ⟨2, ![192, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S256 : Shape := ⟨1, ![256]⟩
abbrev S256x128 : Shape := ⟨2, ![256, 128]⟩
abbrev S256x1 : Shape := ⟨2, ![256, 1]⟩
abbrev S256x192 : Shape := ⟨2, ![256, 192]⟩
abbrev S1x64 : Shape := ⟨2, ![1, 64]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x64, .f32⟩
  | 4 => ⟨S128x128, .f32⟩
  | 5 => ⟨S128, .f32⟩
  | 6 => ⟨S128x128, .f32⟩
  | 7 => ⟨S128, .f32⟩
  | 8 => ⟨S192x64, .f32⟩
  | 9 => ⟨S64, .f32⟩
  | 10 => ⟨S64x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S800000x1, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000, .f32⟩
  | 4 => ⟨S_, .f32⟩
  | 5 => ⟨S256, .f32⟩
  | 6 => ⟨S50000x1, .i32⟩
  | 7 => ⟨S256, .f32⟩
  | 8 => ⟨S_, .f32⟩
  | 9 => ⟨S256x128, .f32⟩
  | 10 => ⟨S50000x1, .i32⟩
  | 11 => ⟨S256x128, .f32⟩
  | 12 => ⟨S_, .f32⟩
  | 13 => ⟨S256, .f32⟩
  | 14 => ⟨S256, .f32⟩
  | 15 => ⟨S256x1, .f32⟩
  | 16 => ⟨S256x128, .f32⟩
  | 17 => ⟨S256x128, .f32⟩
  | 18 => ⟨S256x192, .f32⟩
  | 19 => ⟨S256x64, .f32⟩
  | 20 => ⟨S1x64, .f32⟩
  | 21 => ⟨S256x64, .f32⟩
  | 22 => ⟨S256x64, .f32⟩
  | 23 => ⟨S_, .f32⟩
  | 24 => ⟨S256x64, .f32⟩
  | 25 => ⟨S256x64, .f32⟩
  | 26 => ⟨S256x1, .f32⟩
  | 27 => ⟨S1x1, .f32⟩
  | 28 => ⟨S256x1, .f32⟩
  | 29 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call1_cst : Ref sig .tc := ⟨.hbm, 127, rfl⟩
abbrev main_call1_v0 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_21 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_call2_cst : Ref sig .tc := ⟨.hbm, 151, rfl⟩
abbrev main_call2_v0 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x64_S256x192_d1 : Shape.Concatenates [S256x128, S256x64] S256x192 1
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x192_S192x64_S256x64_1_0_0_1_n_n_wf : DotDims.WF S256x192 S192x64 S256x64 [1] [0] [0] [1] [] []
  dot_S256x64_S64x1_S256x1_1_0_0_1_n_n_wf : DotDims.WF S256x64 S64x1 S256x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x192_S192x64_S256x64_1_0_0_1_n_n : DotDims S256x192 S192x64 S256x64 where
  lhsContracting := [1]
  rhsContracting := [0]
  lhsNonContracting := [0]
  rhsNonContracting := [1]
  lhsBatch := []
  rhsBatch := []
  wf := dot_S256x192_S192x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KernelRun.lean ====
/-
  The idealized kernel's program runs, and where its result array ends.

  The program is six kernel launches among stretches of host lines. Its run is the generated chain of segments: a
  stretch maps the buffers' contents by its lines, a launch replaces its arrays by what the write-backs leave. Read at
  the end of the chain, the result array holds the last boundary's contents at that array, and every argument array
  holds what it was launched with.
-/
import proofs.«173289_j28913719837314_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents, and the argument arrays end as launched. -/
theorem run : θ_run defs (onTc (τ := τ) (main (F := F))) ⟨m, fun _ => 0, ρ⟩ (fun r => ∀ c : Dev nD,
      r.2.mem ((c.tc : Thread nD τ).loc main_v104) = W12 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v104 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.RunValue

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibColumn.lean ====
/-
  A column read at an index.

  A vector of length a cast to an a-by-1 column reads, at (i, u), the vector at i; an a-by-1 column
  broadcast across b lanes reads, at (p, c), the column's entry of row p. These are the keep-dims forms a
  row reduction leaves behind: the reduced value of row p, used again at every lane of that row.
-/
import Idealize.ShloMosaic.Lib.ValueLayout

namespace Idealize.ShloMosaic.ColumnIdx

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnIdx
-- ==== Proof.LibGcnStrips.lean ====
/-
  One graph-convolution step and a dense layer, computed a strip of rows at a time, against the whole arrays.

  A dense layer X · W + b sends row r of X to the row  j ↦ Σ_k X(r, k) · W(k, j) + b(j); the epilogue of a graph
  convolution sends row r of the aggregate A, of the features H and of the column D to the row
  j ↦ max (A(r, j) + D(r) · H(r, j) + b(j), 0). Either way row r of the result depends on row r of the
  row-indexed operands only. So if a block holds the rows o, o+1, …, o+m−1 of those operands (and the whole of W and
  of the bias row), what the vector operations compute on the block at (p, q) is what the host's operations compute on
  the whole arrays at (o+p, q). Every identity below has literally the same terms on its two sides over the extended
  reals, so nothing about finiteness is needed.
-/
import Idealize.ShloMosaic.Lib.ValueIdx
import Idealize.ShloMosaic.Lib.ValueLayout
import Idealize.ShloMosaic.Lib.Pipeline.Value
import Idealize.ShloMosaic.PureOps.Ideal.Laws
import proofs.«173289_j28913719837314_1_alg».proof.Proof.LibPlainDot
import proofs.«173289_j28913719837314_1_alg».proof.Proof.LibRowSpread
import proofs.«173289_j28913719837314_1_alg».proof.Proof.LibColumn

noncomputable section

open scoped BigOperators

namespace Idealize.ShloMosaic.GcnStrips

open Idealize.ShloMosaic Idealize.ShloMosaic.ValueIdx

variable {m M K N : Nat}

/-- The host's spread of a column over N lanes reads, at (r, j), the column's entry of row r. -/
theorem colInDim2_apply {α : Type} (w : (⟨2, ![M, 1]⟩ : Shape).Idx → α)
    (h : (⟨2, ![M, 1]⟩ : Shape).BroadcastsInDim ⟨2, ![M, N]⟩ ![0, 1]) (r : Fin M) (j : Fin N) :
    broadcastInDim ⟨2, ![M, N]⟩ ![0, 1] h w (ix2 r j) = w (ix2 r (0 : Fin 1)) := by
  refine broadcastInDim_apply ![0, 1] h w (ix2 r j) (ix2 r (0 : Fin 1)) fun ax => ?_
  match ax with
  | ⟨0, _⟩ =>
    show r.val = if M = 1 then 0 else r.val
    split
    · have := r.isLt; omega
    · rfl
  | ⟨1, _⟩ => rfl

/-- A vector of a numbers viewed as a column [a, 1] is the vector broadcast along axis 0 of a one-column matrix. -/
theorem shapeCast_col_eq_broadcastInDim {a : Nat} {α : Type} (x : (⟨1, ![a]⟩ : Shape).Idx → α)
    (h1 : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h1 = broadcastInDim ⟨2, ![a, 1]⟩ ![0] hd x := by
  funext i
  have hi : i = ix2 (i 0) (i 1) := eq_ix2 i
  have e2 : shapeCast ⟨2, ![a, 1]⟩ x h1 i = x (ix1 (i 0 : Fin a)) := by
    rw [hi]; exact ColumnIdx.shapeCast_a_a1_apply x h1 (i 0) (i 1)
  have e3 := broadcastInDim_apply ![0] hd x i (ix1 (i 0 : Fin a)) (by
    intro ax
    match ax with
    | ⟨0, _⟩ =>
      show (i 0).val = if a = 1 then 0 else (i 0).val
      split
      · have := (i 0).isLt; have e : (i 0).val < a := this; omega
      · rfl)
  exact e2.trans e3.symm

/-! ## The dense layer -/

/-- The host's dense layer on whole arrays: X · W plus the row B spread over the M rows. -/
def denseHost (hh : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (DotDims.plain M K N) none X W) (broadcastInDim ⟨2, ![M, N]⟩ ![0, 1] hh B)

/-- The same clamped from below at the scalar with bits z. -/
def denseClampHost (hh : (⟨2, ![1, N]⟩ : Shape).BroadcastsInDim ⟨2, ![M, N]⟩ ![0, 1])
    (h0 : (⟨0, ![]⟩ : Shape).BroadcastsInDim ⟨2, ![M, N]⟩ ![]) (z : BitVec 32)
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  maximumf (denseHost hh X W B) (broadcastInDim ⟨2, ![M, N]⟩ ![] h0 (constant (F := Ideal) ⟨0, ![]⟩ .f32 z))

/-- With a bias row of zeros the dense layer is the plain product. -/
theorem denseHost_zero_row (hh : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32)
    (hB : ∀ q : Fin N, B (ix2 (0 : Fin 1) q) = 0) :
    denseHost hh X W B = Host.dotGeneral (DotDims.plain M K N) none X W := by
  funext i
  obtain ⟨p, q, rfl⟩ : ∃ (p : Fin M) (q : Fin N), i = ix2 p q := ⟨i 0, i 1, eq_ix2 i⟩
  unfold denseHost
  rw [addf_apply, RowSpread.rowInDim2_apply, hB]
  exact add_zero _

/-- A strip of the dense layer as the vector operations compute it (a plain product of the strip's rows with the
    weights into the zero accumulator, plus the bias row spread over the strip), at (p, q), is the host's layer on
    the whole arrays at (o + p, q). The operands of the product are given as read, in any float format. -/
theorem dense_strip_apply {φ₁ φ₂ : FTy} (prec : Option ContractPrecision)
    (X : FVec Ideal ⟨2, ![M, K]⟩ .f32) (W : FVec Ideal ⟨2, ![K, N]⟩ .f32) (B : FVec Ideal ⟨2, ![1, N]⟩ .f32)
    (xl : FVec Ideal ⟨2, ![m, K]⟩ φ₁) (wl : FVec Ideal ⟨2, ![K, N]⟩ φ₂) (bb : FVec Ideal ⟨2, ![1, N]⟩ .f32)
    (hc1 : (⟨2, ![1, N]⟩ : Shape).ShapeCasts ⟨2, ![1, N]⟩) (hv : (⟨2, ![1, N]⟩ : Shape).Broadcasts ⟨2, ![m, N]⟩)
    (hh : (⟨2, ![1, N]⟩ : Shape).BroadcastsInDim ⟨2, ![M, N]⟩ ![0, 1])
    (o : Nat) (ho : ∀ p : Fin m, o + p.val < M)
    (hx : ∀ (p : Fin m) (k : Fin K), xl (ix2 p k) = X (ix2 ⟨o + p.val, ho p⟩ k))
    (hw : ∀ (k : Fin K) (q : Fin N), wl (ix2 k q) = W (ix2 k q))
    (hb : ∀ q : Fin N, bb (ix2 (0 : Fin 1) q) = B (ix2 (0 : Fin 1) q)) (p : Fin m) (q : Fin N) :
    addf (matmul (DotDims.plain m K N) prec xl wl (constant ⟨2, ![m, N]⟩ .f32 0x00000000#32))
        (broadcastTo ⟨2, ![m, N]⟩ (shapeCast ⟨2, ![1, N]⟩ bb hc1) hv) (ix2 p q)
      = denseHost hh X W B (ix2 ⟨o + p.val, ho p⟩ q) := by
  unfold denseHost
  rw [addf_apply, addf_apply, RowSpread.rowBcast_apply, shapeCast_self, RowSpread.rowInDim2_apply, hb]
  refine congrArg (· + B (ix2 (0 : Fin 1) q)) ?_
  refine (PlainDot.matmul_zero_apply prec xl wl p q).trans ?_
  refine (Finset.sum_congr rfl fun k _ => ?_).trans
    (PlainDot.dotGeneral_apply none .single X W ⟨o + p.val, ho p⟩ q).symm
  rw [hx, hw]

/-- The same strip clamped from below at the scalar with bits z. -/
theorem denseClamp_strip_apply {φ₁ φ₂ : FTy} (prec : Option ContractPrecision)
    (X : FVec Ideal ⟨2, ![M, K]⟩ .f32) (W : FVec Ideal ⟨2, ![K, N]⟩ .f32) (B : FVec Ideal ⟨2, ![1, N]⟩ .f32)
    (xl : FVec Ideal ⟨2, ![m, K]⟩ φ₁) (wl : FVec Ideal ⟨2, ![K, N]⟩ φ₂) (bb : FVec Ideal ⟨2, ![1, N]⟩ .f32)
    (hc1 : (⟨2, ![1, N]⟩ : Shape).ShapeCasts ⟨2, ![1, N]⟩) (hv : (⟨2, ![1, N]⟩ : Shape).Broadcasts ⟨2, ![m, N]⟩)
    (hh : (⟨2, ![1, N]⟩ : Shape).BroadcastsInDim ⟨2, ![M, N]⟩ ![0, 1])
    (h0 : (⟨0, ![]⟩ : Shape).BroadcastsInDim ⟨2, ![M, N]⟩ ![]) (z : BitVec 32)
    (o : Nat) (ho : ∀ p : Fin m, o + p.val < M)
    (hx : ∀ (p : Fin m) (k : Fin K), xl (ix2 p k) = X (ix2 ⟨o + p.val, ho p⟩ k))
    (hw : ∀ (k : Fin K) (q : Fin N), wl (ix2 k q) = W (ix2 k q))
    (hb : ∀ q : Fin N, bb (ix2 (0 : Fin 1) q) = B (ix2 (0 : Fin 1) q)) (p : Fin m) (q : Fin N) :
    maximumf (addf (matmul (DotDims.plain m K N) prec xl wl (constant ⟨2, ![m, N]⟩ .f32 0x00000000#32))
        (broadcastTo ⟨2, ![m, N]⟩ (shapeCast ⟨2, ![1, N]⟩ bb hc1) hv))
        (broadcast ⟨2, ![m, N]⟩ (Scalar.ofBits (F := Ideal) .f32 z)) (ix2 p q)
      = denseClampHost hh h0 z X W B (ix2 ⟨o + p.val, ho p⟩ q) := by
  unfold denseClampHost
  rw [maximumf_apply, maximumf_apply, dense_strip_apply prec X W B xl wl bb hc1 hv hh o ho hx hw hb p q,
    broadcast_apply, RowSpread.scalarInDim_apply, constant_apply]
  rfl

/-! ## The epilogue of a graph convolution -/

/-- The host's epilogue on whole arrays: max (A + D · H + b, z), the column D spread over the lanes and the row B
    over the rows. -/
def combineHost (hc : (⟨2, ![M, 1]⟩ : Shape).BroadcastsInDim ⟨2, ![M, N]⟩ ![0, 1])
    (hh : (⟨2, ![1, N]⟩ : Shape).BroadcastsInDim ⟨2, ![M, N]⟩ ![0, 1])
    (h0 : (⟨0, ![]⟩ : Shape).BroadcastsInDim ⟨2, ![M, N]⟩ ![]) (z : BitVec 32)
    (A H : FVec Ideal ⟨2, ![M, N]⟩ .f32) (D : FVec Ideal ⟨2, ![M, 1]⟩ .f32) (B : FVec Ideal ⟨2, ![1, N]⟩ .f32) :
    FVec Ideal ⟨2, ![M, N]⟩ .f32 :=
  maximumf (addf (addf A (mulf (broadcastInDim ⟨2, ![M, N]⟩ ![0, 1] hc D) H))
      (broadcastInDim ⟨2, ![M, N]⟩ ![0, 1] hh B))
    (broadcastInDim ⟨2, ![M, N]⟩ ![] h0 (constant (F := Ideal) ⟨0, ![]⟩ .f32 z))

/-- A strip of the epilogue as the vector operations compute it, at (p, q), is the host's epilogue on the whole
    arrays at (o + p, q). -/
theorem combine_strip_apply
    (A H : FVec Ideal ⟨2, ![M, N]⟩ .f32) (D : FVec Ideal ⟨2, ![M, 1]⟩ .f32) (B : FVec Ideal ⟨2, ![1, N]⟩ .f32)
    (ab hb_ : FVec Ideal ⟨2, ![m, N]⟩ .f32) (db : FVec Ideal ⟨2, ![m, 1]⟩ .f32) (bb : FVec Ideal ⟨2, ![1, N]⟩ .f32)
    (hcA : (⟨2, ![m, N]⟩ : Shape).ShapeCasts ⟨2, ![m, N]⟩) (hcD : (⟨2, ![m, 1]⟩ : Shape).ShapeCasts ⟨2, ![m, 1]⟩)
    (hcB : (⟨2, ![1, N]⟩ : Shape).ShapeCasts ⟨2, ![1, N]⟩)
    (hvD : (⟨2, ![m, 1]⟩ : Shape).Broadcasts ⟨2, ![m, N]⟩) (hvB : (⟨2, ![1, N]⟩ : Shape).Broadcasts ⟨2, ![m, N]⟩)
    (hc : (⟨2, ![M, 1]⟩ : Shape).BroadcastsInDim ⟨2, ![M, N]⟩ ![0, 1])
    (hh : (⟨2, ![1, N]⟩ : Shape).BroadcastsInDim ⟨2, ![M, N]⟩ ![0, 1])
    (h0 : (⟨0, ![]⟩ : Shape).BroadcastsInDim ⟨2, ![M, N]⟩ ![]) (z : BitVec 32)
    (o : Nat) (ho : ∀ p : Fin m, o + p.val < M)
    (ha : ∀ (p : Fin m) (q : Fin N), ab (ix2 p q) = A (ix2 ⟨o + p.val, ho p⟩ q))
    (hh_ : ∀ (p : Fin m) (q : Fin N), hb_ (ix2 p q) = H (ix2 ⟨o + p.val, ho p⟩ q))
    (hd : ∀ p : Fin m, db (ix2 p (0 : Fin 1)) = D (ix2 ⟨o + p.val, ho p⟩ (0 : Fin 1)))
    (hb : ∀ q : Fin N, bb (ix2 (0 : Fin 1) q) = B (ix2 (0 : Fin 1) q)) (p : Fin m) (q : Fin N) :
    maximumf (addf (addf (shapeCast ⟨2, ![m, N]⟩ ab hcA)
          (mulf (broadcastTo ⟨2, ![m, N]⟩ (shapeCast ⟨2, ![m, 1]⟩ db hcD) hvD) (shapeCast ⟨2, ![m, N]⟩ hb_ hcA)))
        (broadcastTo ⟨2, ![m, N]⟩ (shapeCast ⟨2, ![1, N]⟩ bb hcB) hvB))
        (broadcast ⟨2, ![m, N]⟩ (Scalar.ofBits (F := Ideal) .f32 z)) (ix2 p q)
      = combineHost hc hh h0 z A H D B (ix2 ⟨o + p.val, ho p⟩ q) := by
  unfold combineHost
  rw [maximumf_apply, maximumf_apply, addf_apply, addf_apply, addf_apply, addf_apply, mulf_apply, mulf_apply,
    shapeCast_self, shapeCast_self, shapeCast_self, shapeCast_self,
    ColumnIdx.broadcastTo_a1_ab_apply, RowSpread.rowBcast_apply, colInDim2_apply, RowSpread.rowInDim2_apply,
    broadcast_apply, RowSpread.scalarInDim_apply, constant_apply, ha, hh_, hd, hb]
  rfl

end Idealize.ShloMosaic.GcnStrips

end
-- ==== Proof.LibRowCast.lean ====
/-
  A vector laid out as a one-row matrix: the reshape and the broadcast along axis 1 are the same array.

  Both place entry j of a vector of n entries at (0, j) of a 1 × n matrix.
-/
import Idealize.ShloMosaic.Lib.Pipeline.Value
import Idealize.ShloMosaic.Lib.ValueIdx

noncomputable section

namespace Idealize.ShloMosaic.RowCast

open Idealize.ShloMosaic Idealize.ShloMosaic.ValueIdx

variable {n : Nat} {α : Type}

/-- A vector reshaped to one row is the vector broadcast along axis 1 of a one-row matrix. -/
theorem shapeCast_row_eq_broadcastInDim (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast

end
-- ==== Proof.Region4.lean ====
/-
  The classifier's hidden layer: one block holding all 256 rows, multiplied by the weights, the bias row added and
  the sum clamped from below at zero, leaves the array holding the host's clamped dense layer.
-/
import proofs.«173289_j28913719837314_1_alg».proof.Proof.Gen.KernelIdeal.Frame
import proofs.«173289_j28913719837314_1_alg».proof.Proof.LibGcnStrips
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem zero_offsets4 : (![0, 0] : Fin 2 → Nat) = fun _ => 0 := funext fun a => by fin_cases a <;> rfl

/-- The index maps over the one point: every window's block is block (0, 0), the whole of its array. -/
theorem blocks4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The body's result on a block holding rows o … o+255 of X, the whole of W and the bias row, at (p, q), is the
    clamped dense layer of the whole arrays at (o + p, q): recasting a block to its own shape and rounding the
    operands to a narrower format are the identity over the extended reals. -/
theorem block4_apply (X : FVec Ideal S256x192 .f32) (W : FVec Ideal S192x64 .f32) (B : FVec Ideal S1x64 .f32)
    (x0 : Vec Ideal S256x192 .f32) (x1 : Vec Ideal S192x64 .f32) (x2 : Vec Ideal S1x64 .f32)
    (o : Nat) (ho : ∀ p : Fin 256, o + p.val < 256)
    (hx : ∀ (p : Fin 256) (k : Fin 192), x0 (ix2 p k) = X (ix2 ⟨o + p.val, ho p⟩ k))
    (hw : ∀ (k : Fin 192) (q : Fin 64), x1 (ix2 k q) = W (ix2 k q))
    (hb : ∀ q : Fin 64, x2 (ix2 (0 : Fin 1) q) = B (ix2 (0 : Fin 1) q)) (p : Fin 256) (q : Fin 64) :
    k4_pay1 x0 x1 x2 (ix2 p q)
      = GcnStrips.denseClampHost (M := 256) (K := 192) (N := 64) (by decide) (by decide) 0x00000000#32 X W B
          (ix2 ⟨o + p.val, ho p⟩ q) := by
  unfold k4_pay1
  exact GcnStrips.denseClamp_strip_apply (m := 256) (M := 256) (K := 192) (N := 64) none X W B
    (truncf .bf16 (shapeCast S256x192 x0 shapeCasts_S256x192_S256x192) bitsLt_bf16_f32)
    (truncf .bf16 x1 bitsLt_bf16_f32) x2
    shapeCasts_S1x64_S1x64 broadcasts_S1x64_S256x64 (by decide) (by decide) 0x00000000#32 o ho
    (fun p k => by rw [truncf_apply, shapeCast_self]; exact hx p k) hw hb p q

/-- What the point writes back is its block of the clamped dense layer of the arrays the launch found. -/
theorem flushed4_eq (c : Dev nD) (t : Fin cfg4.N) :
    (dat4 V c).flushed 3 t = ((cfg4.win 3).blk t).view.read (Elt Ideal)
      (GcnStrips.denseClampHost (M := 256) (K := 192) (N := 64) (by decide) (by decide) 0x00000000#32
        (V c main_v100) (V c main_arg8) (V c main_v101)) := by
  show (cfg4.win 3).cut (grid4.coords t) ((dat4 V c).after 3 t) = _
  rw [after4_3]
  unfold out4_3
  rw [View.canon_unit_zero zero_offsets4]
  simp only [View.ld_unit_zero (S := S256x192) zero_offsets4, View.ld_unit_zero (S := S192x64) zero_offsets4,
    View.ld_unit_zero (S := S1x64) zero_offsets4]
  obtain ⟨e0, e1, e2, e3, e4, e5, e6, e7⟩ := blocks4 t
  funext j
  obtain ⟨p, q, rfl⟩ : ∃ (p : Fin 256) (q : Fin 64), j = ix2 p q := ⟨j 0, j 1, eq_ix2 j⟩
  have ho : ∀ p : Fin 256, win4_3.index t (0 : Fin 2) * 256 + p.val < 256 := fun p => by
    have := p.isLt; omega
  have hx : ∀ (p : Fin 256) (k : Fin 192), iblk4 V c 0 t (ix2 p k)
      = V c main_v100 (ix2 ⟨win4_3.index t (0 : Fin 2) * 256 + p.val, ho p⟩ k) := by
    intro p k
    show V c main_v100 (((cfg4.win 0).blk t).view.emb (ix2 p k)) = _
    refine congrArg _ ?_
    funext a; apply Fin.ext
    match a with
    | ⟨0, _⟩ => show win4_0.index t (0 : Fin 2) * 256 + 1 * p.val = win4_3.index t (0 : Fin 2) * 256 + p.val; omega
    | ⟨1, _⟩ => show win4_0.index t (1 : Fin 2) * 192 + 1 * k.val = k.val; omega
  have hw : ∀ (k : Fin 192) (q : Fin 64), iblk4 V c 1 t (ix2 k q) = V c main_arg8 (ix2 k q) := by
    intro k q
    show V c main_arg8 (((cfg4.win 1).blk t).view.emb (ix2 k q)) = _
    refine congrArg _ ?_
    funext a; apply Fin.ext
    match a with
    | ⟨0, _⟩ => show win4_1.index t (0 : Fin 2) * 192 + 1 * k.val = k.val; omega
    | ⟨1, _⟩ => show win4_1.index t (1 : Fin 2) * 64 + 1 * q.val = q.val; omega
  have hb : ∀ q : Fin 64, iblk4 V c 2 t (ix2 (0 : Fin 1) q) = V c main_v101 (ix2 (0 : Fin 1) q) := by
    intro q
    show V c main_v101 (((cfg4.win 2).blk t).view.emb (ix2 (0 : Fin 1) q)) = _
    refine congrArg _ ?_
    funext a; apply Fin.ext
    match a with
    | ⟨0, _⟩ => show win4_2.index t (0 : Fin 2) * 1 + 1 * 0 = 0; omega
    | ⟨1, _⟩ => show win4_2.index t (1 : Fin 2) * 64 + 1 * q.val = q.val; omega
  have ej : ((cfg4.win 3).blk t).view.emb (ix2 p q)
      = (ix2 ⟨win4_3.index t (0 : Fin 2) * 256 + p.val, ho p⟩ q : S256x64.Idx) := by
    funext a; apply Fin.ext
    match a with
    | ⟨0, _⟩ => show win4_3.index t (0 : Fin 2) * 256 + 1 * p.val = win4_3.index t (0 : Fin 2) * 256 + p.val; omega
    | ⟨1, _⟩ => show win4_3.index t (1 : Fin 2) * 64 + 1 * q.val = q.val; omega
  show k4_pay1 (iblk4 V c 0 t) (iblk4 V c 1 t) (iblk4 V c 2 t) (ix2 p q)
    = GcnStrips.denseClampHost (M := 256) (K := 192) (N := 64) (by decide) (by decide) 0x00000000#32
        (V c main_v100) (V c main_arg8) (V c main_v101) (((cfg4.win 3).blk t).view.emb (ix2 p q))
  rw [ej]
  exact block4_apply (V c main_v100) (V c main_arg8) (V c main_v101) (iblk4 V c 0 t) (iblk4 V c 1 t) (iblk4 V c 2 t)
    (win4_3.index t (0 : Fin 2) * 256) ho hx hw hb p q

/-- An index of the array is in point t's block iff each coordinate is in the block's range on its axis. -/
theorem mem_block4 (t : Fin cfg4.N) (i : S256x64.Idx) :
    i ∈ ((cfg4.win 3).blk t).view.set ↔ ∀ a : Fin 2, win4_3.index t a * S256x64.size a ≤ (i a).val
      ∧ (i a).val < win4_3.index t a * S256x64.size a + S256x64.size a := by
  show i ∈ ((View.whole main_v102).slice (win4_3.rect t)).set ↔ _
  rw [View.set_slice_whole, Rect.mem_set_unit]
  exact Iff.rfl

/-- Every index of the array is in the block of the single point, which writes its block back. -/
theorem cover4 (i : S256x64.Idx) :
    ∃ t : Fin cfg4.N, (cfg4.win 3).flush t = true ∧ i ∈ ((cfg4.win 3).blk t).view.set := by
  have hi0 : (i 0).val < 256 := (i 0).isLt
  have hi1 : (i 1).val < 64 := (i 1).isLt
  have hN : grid4.N = 1 := N_4
  have ht : 0 < cfg4.N := by show 0 < grid4.N; rw [hN]; omega
  obtain ⟨e0, e1, e2, e3, e4, e5, e6, e7⟩ := blocks4 ⟨0, ht⟩
  refine ⟨⟨0, ht⟩, flush4_3 _, ?_⟩
  rw [mem_block4]
  intro a
  match a with
  | ⟨0, _⟩ =>
    show win4_3.index ⟨0, ht⟩ (0 : Fin 2) * 256 ≤ (i 0).val
      ∧ (i 0).val < win4_3.index ⟨0, ht⟩ (0 : Fin 2) * 256 + 256
    omega
  | ⟨1, _⟩ =>
    show win4_3.index ⟨0, ht⟩ (1 : Fin 2) * 64 ≤ (i 1).val
      ∧ (i 1).val < win4_3.index ⟨0, ht⟩ (1 : Fin 2) * 64 + 64
    omega

/-- After the launch the output array holds the clamped dense layer of the arrays the launch found. -/
theorem final4 (c : Dev nD) :
    (dat4 V c).arrAt 3 cfg4.N
      = GcnStrips.denseClampHost (M := 256) (K := 192) (N := 64) (by decide) (by decide) 0x00000000#32
          (V c main_v100) (V c main_arg8) (V c main_v101) :=
  (dat4 V c).arrAt_eq_of_cover 3 _ (fun t _ => flushed4_eq V c t) cover4

end Cert.KernelIdeal.RegionValue

end
-- ==== Proof.Region5.lean ====
/-
  The classifier's output layer: one block holding all 256 rows, multiplied by the weights and the bias added,
  leaves the array holding the host's dense layer.
-/
import proofs.«173289_j28913719837314_1_alg».proof.Proof.Gen.KernelIdeal.Frame
import proofs.«173289_j28913719837314_1_alg».proof.Proof.LibGcnStrips
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem zero_offsets5 : (![0, 0] : Fin 2 → Nat) = fun _ => 0 := funext fun a => by fin_cases a <;> rfl

/-- The index maps over the one point: every window's block is block (0, 0), the whole of its array. -/
theorem blocks5 : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- The body's result on a block holding rows o … o+255 of X, the whole of the one-column W and the bias, at
    (p, q), is the dense layer of the whole arrays at (o + p, q): recasting a block to its own shape and rounding
    the operands to a narrower format are the identity over the extended reals. -/
theorem block5_apply (X : FVec Ideal S256x64 .f32) (W : FVec Ideal S64x1 .f32) (B : FVec Ideal S1x1 .f32)
    (x0 : Vec Ideal S256x64 .f32) (x1 : Vec Ideal S64x1 .f32) (x2 : Vec Ideal S1x1 .f32)
    (o : Nat) (ho : ∀ p : Fin 256, o + p.val < 256)
    (hx : ∀ (p : Fin 256) (k : Fin 64), x0 (ix2 p k) = X (ix2 ⟨o + p.val, ho p⟩ k))
    (hw : ∀ (k : Fin 64) (q : Fin 1), x1 (ix2 k q) = W (ix2 k q))
    (hb : ∀ q : Fin 1, x2 (ix2 (0 : Fin 1) q) = B (ix2 (0 : Fin 1) q)) (p : Fin 256) (q : Fin 1) :
    k5_pay1 x0 x1 x2 (ix2 p q)
      = GcnStrips.denseHost (M := 256) (K := 64) (N := 1) (by decide) X W B (ix2 ⟨o + p.val, ho p⟩ q) := by
  unfold k5_pay1
  exact GcnStrips.dense_strip_apply (m := 256) (M := 256) (K := 64) (N := 1) none X W B
    (truncf .bf16 (shapeCast S256x64 x0 shapeCasts_S256x64_S256x64) bitsLt_bf16_f32)
    (truncf .bf16 x1 bitsLt_bf16_f32) x2
    shapeCasts_S1x1_S1x1 broadcasts_S1x1_S256x1 (by decide) o ho
    (fun p k => by rw [truncf_apply, shapeCast_self]; exact hx p k) hw hb p q

/-- What the point writes back is its block of the dense layer of the arrays the launch found. -/
theorem flushed5_eq (c : Dev nD) (t : Fin cfg5.N) :
    (dat5 V c).flushed 3 t = ((cfg5.win 3).blk t).view.read (Elt Ideal)
      (GcnStrips.denseHost (M := 256) (K := 64) (N := 1) (by decide)
        (V c main_v102) (V c main_arg10) (V c main_v103)) := by
  show (cfg5.win 3).cut (grid5.coords t) ((dat5 V c).after 3 t) = _
  rw [after5_3]
  unfold out5_3
  rw [View.canon_unit_zero zero_offsets5]
  simp only [View.ld_unit_zero (S := S256x64) zero_offsets5, View.ld_unit_zero (S := S64x1) zero_offsets5,
    View.ld_unit_zero (S := S1x1) zero_offsets5]
  obtain ⟨e0, e1, e2, e3, e4, e5, e6, e7⟩ := blocks5 t
  funext j
  obtain ⟨p, q, rfl⟩ : ∃ (p : Fin 256) (q : Fin 1), j = ix2 p q := ⟨j 0, j 1, eq_ix2 j⟩
  have ho : ∀ p : Fin 256, win5_3.index t (0 : Fin 2) * 256 + p.val < 256 := fun p => by
    have := p.isLt; omega
  have hx : ∀ (p : Fin 256) (k : Fin 64), iblk5 V c 0 t (ix2 p k)
      = V c main_v102 (ix2 ⟨win5_3.index t (0 : Fin 2) * 256 + p.val, ho p⟩ k) := by
    intro p k
    show V c main_v102 (((cfg5.win 0).blk t).view.emb (ix2 p k)) = _
    refine congrArg _ ?_
    funext a; apply Fin.ext
    match a with
    | ⟨0, _⟩ => show win5_0.index t (0 : Fin 2) * 256 + 1 * p.val = win5_3.index t (0 : Fin 2) * 256 + p.val; omega
    | ⟨1, _⟩ => show win5_0.index t (1 : Fin 2) * 64 + 1 * k.val = k.val; omega
  have hw : ∀ (k : Fin 64) (q : Fin 1), iblk5 V c 1 t (ix2 k q) = V c main_arg10 (ix2 k q) := by
    intro k q
    show V c main_arg10 (((cfg5.win 1).blk t).view.emb (ix2 k q)) = _
    refine congrArg _ ?_
    funext a; apply Fin.ext
    match a with
    | ⟨0, _⟩ => show win5_1.index t (0 : Fin 2) * 64 + 1 * k.val = k.val; omega
    | ⟨1, _⟩ => show win5_1.index t (1 : Fin 2) * 1 + 1 * q.val = q.val; omega
  have hb : ∀ q : Fin 1, iblk5 V c 2 t (ix2 (0 : Fin 1) q) = V c main_v103 (ix2 (0 : Fin 1) q) := by
    intro q
    show V c main_v103 (((cfg5.win 2).blk t).view.emb (ix2 (0 : Fin 1) q)) = _
    refine congrArg _ ?_
    funext a; apply Fin.ext
    match a with
    | ⟨0, _⟩ => show win5_2.index t (0 : Fin 2) * 1 + 1 * 0 = 0; omega
    | ⟨1, _⟩ => show win5_2.index t (1 : Fin 2) * 1 + 1 * q.val = q.val; omega
  have ej : ((cfg5.win 3).blk t).view.emb (ix2 p q)
      = (ix2 ⟨win5_3.index t (0 : Fin 2) * 256 + p.val, ho p⟩ q : S256x1.Idx) := by
    funext a; apply Fin.ext
    match a with
    | ⟨0, _⟩ => show win5_3.index t (0 : Fin 2) * 256 + 1 * p.val = win5_3.index t (0 : Fin 2) * 256 + p.val; omega
    | ⟨1, _⟩ => show win5_3.index t (1 : Fin 2) * 1 + 1 * q.val = q.val; omega
  show k5_pay1 (iblk5 V c 0 t) (iblk5 V c 1 t) (iblk5 V c 2 t) (ix2 p q)
    = GcnStrips.denseHost (M := 256) (K := 64) (N := 1) (by decide)
        (V c main_v102) (V c main_arg10) (V c main_v103) (((cfg5.win 3).blk t).view.emb (ix2 p q))
  rw [ej]
  exact block5_apply (V c main_v102) (V c main_arg10) (V c main_v103) (iblk5 V c 0 t) (iblk5 V c 1 t) (iblk5 V c 2 t)
    (win5_3.index t (0 : Fin 2) * 256) ho hx hw hb p q

/-- An index of the array is in point t's block iff each coordinate is in the block's range on its axis. -/
theorem mem_block5 (t : Fin cfg5.N) (i : S256x1.Idx) :
    i ∈ ((cfg5.win 3).blk t).view.set ↔ ∀ a : Fin 2, win5_3.index t a * S256x1.size a ≤ (i a).val
      ∧ (i a).val < win5_3.index t a * S256x1.size a + S256x1.size a := by
  show i ∈ ((View.whole main_v104).slice (win5_3.rect t)).set ↔ _
  rw [View.set_slice_whole, Rect.mem_set_unit]
  exact Iff.rfl

/-- Every index of the array is in the block of the single point, which writes its block back. -/
theorem cover5 (i : S256x1.Idx) :
    ∃ t : Fin cfg5.N, (cfg5.win 3).flush t = true ∧ i ∈ ((cfg5.win 3).blk t).view.set := by
  have hi0 : (i 0).val < 256 := (i 0).isLt
  have hi1 : (i 1).val < 1 := (i 1).isLt
  have hN : grid5.N = 1 := N_5
  have ht : 0 < cfg5.N := by show 0 < grid5.N; rw [hN]; omega
  obtain ⟨e0, e1, e2, e3, e4, e5, e6, e7⟩ := blocks5 ⟨0, ht⟩
  refine ⟨⟨0, ht⟩, flush5_3 _, ?_⟩
  rw [mem_block5]
  intro a
  match a with
  | ⟨0, _⟩ =>
    show win5_3.index ⟨0, ht⟩ (0 : Fin 2) * 256 ≤ (i 0).val
      ∧ (i 0).val < win5_3.index ⟨0, ht⟩ (0 : Fin 2) * 256 + 256
    omega
  | ⟨1, _⟩ =>
    show win5_3.index ⟨0, ht⟩ (1 : Fin 2) * 1 ≤ (i 1).val
      ∧ (i 1).val < win5_3.index ⟨0, ht⟩ (1 : Fin 2) * 1 + 1
    omega

/-- After the launch the output array holds the dense layer of the arrays the launch found. -/
theorem final5 (c : Dev nD) :
    (dat5 V c).arrAt 3 cfg5.N
      = GcnStrips.denseHost (M := 256) (K := 64) (N := 1) (by decide) (V c main_v102) (V c main_arg10) (V c main_v103) :=
  (dat5 V c).arrAt_eq_of_cover 3 _ (fun t _ => flushed5_eq V c t) cover5

end Cert.KernelIdeal.RegionValue

end
-- ==== Proof.Region2.lean ====
/-
  The second dense launch: ten strips of 5000 rows of the first layer's output, each multiplied by the whole of W and
  the bias row added, leave the array holding the host's dense layer of the whole input.
-/
import proofs.«173289_j28913719837314_1_alg».proof.Proof.Gen.KernelIdeal.Frame
import proofs.«173289_j28913719837314_1_alg».proof.Proof.LibGcnStrips
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem zero_offsets2 : (![0, 0] : Fin 2 → Nat) = fun _ => 0 := funext fun a => by fin_cases a <;> rfl

/-- The index maps over the ten points: the strip of X moves with the output strip and sits at column block 0;
    the weights and the bias row are always their one block; the output strip of point t is strip t. -/
theorem strips2 : ∀ t : Fin cfg2.N,
    win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's result on a block holding rows o … o+4999 of X, the whole of W and the bias row, at (p, q), is the
    dense layer of the whole arrays at (o + p, q): recasting a block to its own shape and rounding the operands to a
    narrower format are the identity over the extended reals. -/
theorem strip2_apply (X : FVec Ideal S50000x128 .f32) (W : FVec Ideal S128x128 .f32) (B : FVec Ideal S1x128 .f32)
    (x0 : Vec Ideal S5000x128 .f32) (x1 : Vec Ideal S128x128 .f32) (x2 : Vec Ideal S1x128 .f32)
    (o : Nat) (ho : ∀ p : Fin 5000, o + p.val < 50000)
    (hx : ∀ (p : Fin 5000) (k : Fin 128), x0 (ix2 p k) = X (ix2 ⟨o + p.val, ho p⟩ k))
    (hw : ∀ (k : Fin 128) (q : Fin 128), x1 (ix2 k q) = W (ix2 k q))
    (hb : ∀ q : Fin 128, x2 (ix2 (0 : Fin 1) q) = B (ix2 (0 : Fin 1) q)) (p : Fin 5000) (q : Fin 128) :
    k2_pay1 x0 x1 x2 (ix2 p q)
      = GcnStrips.denseHost (M := 50000) (K := 128) (N := 128) (by decide) X W B (ix2 ⟨o + p.val, ho p⟩ q) := by
  unfold k2_pay1
  exact GcnStrips.dense_strip_apply (m := 5000) (M := 50000) (K := 128) (N := 128) none X W B
    (truncf .bf16 (shapeCast S5000x128 x0 shapeCasts_S5000x128_S5000x128) bitsLt_bf16_f32)
    (truncf .bf16 x1 bitsLt_bf16_f32) x2
    shapeCasts_S1x128_S1x128 broadcasts_S1x128_S5000x128 (by decide) o ho
    (fun p k => by rw [truncf_apply, shapeCast_self]; exact hx p k) hw hb p q

/-- What point t writes back is block t of the dense layer of the arrays the launch found. -/
theorem flushed2_eq (c : Dev nD) (t : Fin cfg2.N) :
    (dat2 V c).flushed 3 t = ((cfg2.win 3).blk t).view.read (Elt Ideal)
      (GcnStrips.denseHost (M := 50000) (K := 128) (N := 128) (by decide) (V c main_v45) (V c main_arg6) (V c main_v47)) := by
  show (cfg2.win 3).cut (grid2.coords t) ((dat2 V c).after 3 t) = _
  rw [after2_3]
  unfold out2_3
  rw [View.canon_unit_zero zero_offsets2]
  simp only [View.ld_unit_zero (S := S5000x128) zero_offsets2, View.ld_unit_zero (S := S128x128) zero_offsets2,
    View.ld_unit_zero (S := S1x128) zero_offsets2]
  obtain ⟨e0, e1, e2, e3, e4, e5, e6, e7⟩ := strips2 t
  have ht : t.val < 10 := lt_of_lt_of_eq (t.isLt : t.val < grid2.N) N_2
  funext j
  obtain ⟨p, q, rfl⟩ : ∃ (p : Fin 5000) (q : Fin 128), j = ix2 p q := ⟨j 0, j 1, eq_ix2 j⟩
  have ho : ∀ p : Fin 5000, win2_3.index t (0 : Fin 2) * 5000 + p.val < 50000 := fun p => by
    have := p.isLt; omega
  have hx : ∀ (p : Fin 5000) (k : Fin 128), iblk2 V c 0 t (ix2 p k)
      = V c main_v45 (ix2 ⟨win2_3.index t (0 : Fin 2) * 5000 + p.val, ho p⟩ k) := by
    intro p k
    show V c main_v45 (((cfg2.win 0).blk t).view.emb (ix2 p k)) = _
    refine congrArg _ ?_
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  have hw : ∀ (k : Fin 128) (q : Fin 128), iblk2 V c 1 t (ix2 k q) = V c main_arg6 (ix2 k q) := by
    intro k q
    show V c main_arg6 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have hb : ∀ q : Fin 128, iblk2 V c 2 t (ix2 (0 : Fin 1) q) = V c main_v47 (ix2 (0 : Fin 1) q) := by
    intro q
    show V c main_v47 (((cfg2.win 2).blk t).view.emb (ix2 (0 : Fin 1) q)) = _
    refine congrArg _ ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have ej : ((cfg2.win 3).blk t).view.emb (ix2 p q)
      = (ix2 ⟨win2_3.index t (0 : Fin 2) * 5000 + p.val, ho p⟩ q : S50000x128.Idx) := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 128 + 1 * q.val = q.val; omega
  show k2_pay1 (iblk2 V c 0 t) (iblk2 V c 1 t) (iblk2 V c 2 t) (ix2 p q)
    = GcnStrips.denseHost (M := 50000) (K := 128) (N := 128) (by decide) (V c main_v45) (V c main_arg6) (V c main_v47)
        (((cfg2.win 3).blk t).view.emb (ix2 p q))
  rw [ej]
  exact strip2_apply (V c main_v45) (V c main_arg6) (V c main_v47) (iblk2 V c 0 t) (iblk2 V c 1 t) (iblk2 V c 2 t)
    (win2_3.index t (0 : Fin 2) * 5000) ho hx hw hb p q

/-- An index of the array is in point t's block iff each coordinate is in the block's range on its axis. -/
theorem mem_strip2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v48).slice (win2_3.rect t)).set ↔ _
  rw [View.set_slice_whole, Rect.mem_set_unit]
  exact Iff.rfl

/-- Row r of the array is in the strip of the point numbered r / 5000, and every point writes its strip back. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have ht : (i 0).val / 5000 < cfg2.N := by show (i 0).val / 5000 < grid2.N; rw [hN]; omega
  obtain ⟨e0, e1, e2, e3, e4, e5, e6, e7⟩ := strips2 ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_strip2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    omega

/-- After the launch the output array holds the dense layer of the arrays the launch found, index by index. -/
theorem final2 (c : Dev nD) :
    (dat2 V c).arrAt 3 cfg2.N
      = GcnStrips.denseHost (M := 50000) (K := 128) (N := 128) (by decide) (V c main_v45) (V c main_arg6) (V c main_v47) :=
  (dat2 V c).arrAt_eq_of_cover 3 _ (fun t _ => flushed2_eq V c t) cover2

end Cert.KernelIdeal.RegionValue

end
-- ==== Proof.Region3.lean ====
/-
  The second epilogue launch: ten strips of 5000 rows of the aggregate, the features and the degree column, with the
  bias row, leave the array holding the host's epilogue of the whole arrays.
-/
import proofs.«173289_j28913719837314_1_alg».proof.Proof.Gen.KernelIdeal.Frame
import proofs.«173289_j28913719837314_1_alg».proof.Proof.LibGcnStrips
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as a constant function. -/
theorem zero_offsets3 : (![0, 0] : Fin 2 → Nat) = fun _ => 0 := funext fun a => by fin_cases a <;> rfl

/-- The block index maps, decided over the ten grid points: the three row-indexed windows (aggregate, features,
    column) sit at the output window's row block and at lane block 0; the bias row's window is block (0, 0); the
    output's row block is the point's number and its lane block is 0. -/
theorem strip_index3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's arithmetic on a strip: if the four blocks hold rows o … o + 4999 of the aggregate, of the features and
    of the column, and the bias row, then max (a + d · h + b, 0) computed on the blocks is, at (p, q), the host's
    epilogue of the whole arrays at (o + p, q). -/
theorem strip_payload3
    (A H : FVec Ideal ⟨2, ![50000, 128]⟩ .f32) (D : FVec Ideal ⟨2, ![50000, 1]⟩ .f32) (B : FVec Ideal ⟨2, ![1, 128]⟩ .f32)
    (x0 x1 : Vec Ideal S5000x128 .f32) (x2 : Vec Ideal S5000x1 .f32) (x3 : Vec Ideal S1x128 .f32)
    (hc : (⟨2, ![50000, 1]⟩ : Shape).BroadcastsInDim ⟨2, ![50000, 128]⟩ ![0, 1])
    (hh : (⟨2, ![1, 128]⟩ : Shape).BroadcastsInDim ⟨2, ![50000, 128]⟩ ![0, 1])
    (h0 : (⟨0, ![]⟩ : Shape).BroadcastsInDim ⟨2, ![50000, 128]⟩ ![])
    (o : Nat) (ho : ∀ p : Fin 5000, o + p.val < 50000)
    (ha : ∀ (p : Fin 5000) (q : Fin 128), x0 (ix2 p q) = A (ix2 ⟨o + p.val, ho p⟩ q))
    (hh_ : ∀ (p : Fin 5000) (q : Fin 128), x1 (ix2 p q) = H (ix2 ⟨o + p.val, ho p⟩ q))
    (hd : ∀ p : Fin 5000, x2 (ix2 p (0 : Fin 1)) = D (ix2 ⟨o + p.val, ho p⟩ (0 : Fin 1)))
    (hb : ∀ q : Fin 128, x3 (ix2 (0 : Fin 1) q) = B (ix2 (0 : Fin 1) q)) (p : Fin 5000) (q : Fin 128) :
    k3_pay1 x0 x1 x2 x3 (ix2 p q)
      = GcnStrips.combineHost hc hh h0 0x00000000#32 A H D B (ix2 ⟨o + p.val, ho p⟩ q) := by
  unfold k3_pay1
  exact GcnStrips.combine_strip_apply A H D B x0 x1 x2 x3 _ _ _ _ _ hc hh h0 0x00000000#32 o ho ha hh_ hd hb p q

/-- What point t writes back is block t of the host's epilogue of the arrays the launch found. -/
theorem strip_flushed3 (c : Dev nD) (t : Fin cfg3.N) :
    (dat3 V c).flushed 4 t = ((cfg3.win 4).blk t).view.read (Elt Ideal)
      (GcnStrips.combineHost (M := 50000) (N := 128) (by decide) (by decide) (by decide) 0x00000000#32
        (V c main_v83) (V c main_v48) (V c main_v85) (V c main_v86)) := by
  show (cfg3.win 4).cut (grid3.coords t) ((dat3 V c).after 4 t) = _
  rw [after3_4]
  unfold out3_4
  rw [View.canon_unit_zero zero_offsets3]
  simp only [View.ld_unit_zero (S := S5000x128) zero_offsets3, View.ld_unit_zero (S := S5000x1) zero_offsets3,
    View.ld_unit_zero (S := S1x128) zero_offsets3]
  obtain ⟨e00, e01, e10, e11, e20, e21, e30, e31, e40, e41⟩ := strip_index3 t
  have hN : cfg3.N = 10 := N_3
  have ht : t.val < 10 := by have := t.isLt; omega
  have ho : ∀ p : Fin 5000, win3_4.index t (0 : Fin 2) * 5000 + p.val < 50000 := fun p => by
    have := p.isLt; omega
  funext j
  obtain ⟨p, q, rfl⟩ : ∃ (p : Fin 5000) (q : Fin 128), j = ix2 p q := ⟨j 0, j 1, eq_ix2 j⟩
  have hemb : ((cfg3.win 4).blk t).view.emb (ix2 p q)
      = (ix2 (⟨win3_4.index t (0 : Fin 2) * 5000 + p.val, ho p⟩ : Fin 50000) q : S50000x128.Idx) := by
    funext a; apply Fin.ext
    match a with
    | ⟨0, _⟩ => show win3_4.index t (0 : Fin 2) * 5000 + 1 * p.val = win3_4.index t (0 : Fin 2) * 5000 + p.val; omega
    | ⟨1, _⟩ => show win3_4.index t (1 : Fin 2) * 128 + 1 * q.val = q.val; omega
  show k3_pay1 (iblk3 V c 0 t) (iblk3 V c 1 t) (iblk3 V c 2 t) (iblk3 V c 3 t) (ix2 p q)
    = GcnStrips.combineHost (M := 50000) (N := 128) _ _ _ 0x00000000#32
        (V c main_v83) (V c main_v48) (V c main_v85) (V c main_v86) (((cfg3.win 4).blk t).view.emb (ix2 p q))
  rw [hemb]
  refine strip_payload3 (V c main_v83) (V c main_v48) (V c main_v85) (V c main_v86)
    (iblk3 V c 0 t) (iblk3 V c 1 t) (iblk3 V c 2 t) (iblk3 V c 3 t) _ _ _
    (win3_4.index t (0 : Fin 2) * 5000) ho ?_ ?_ ?_ ?_ p q
  · intro p q
    show V c main_v83 (((cfg3.win 0).blk t).view.emb (ix2 p q)) = _
    refine congrArg (V c main_v83) ?_
    funext a; apply Fin.ext
    match a with
    | ⟨0, _⟩ => show win3_0.index t (0 : Fin 2) * 5000 + 1 * p.val = win3_4.index t (0 : Fin 2) * 5000 + p.val; omega
    | ⟨1, _⟩ => show win3_0.index t (1 : Fin 2) * 128 + 1 * q.val = q.val; omega
  · intro p q
    show V c main_v48 (((cfg3.win 1).blk t).view.emb (ix2 p q)) = _
    refine congrArg (V c main_v48) ?_
    funext a; apply Fin.ext
    match a with
    | ⟨0, _⟩ => show win3_1.index t (0 : Fin 2) * 5000 + 1 * p.val = win3_4.index t (0 : Fin 2) * 5000 + p.val; omega
    | ⟨1, _⟩ => show win3_1.index t (1 : Fin 2) * 128 + 1 * q.val = q.val; omega
  · intro p
    show V c main_v85 (((cfg3.win 2).blk t).view.emb (ix2 p (0 : Fin 1))) = _
    refine congrArg (V c main_v85) ?_
    funext a; apply Fin.ext
    match a with
    | ⟨0, _⟩ => show win3_2.index t (0 : Fin 2) * 5000 + 1 * p.val = win3_4.index t (0 : Fin 2) * 5000 + p.val; omega
    | ⟨1, _⟩ => show win3_2.index t (1 : Fin 2) * 1 + 1 * 0 = 0; omega
  · intro q
    show V c main_v86 (((cfg3.win 3).blk t).view.emb (ix2 (0 : Fin 1) q)) = _
    refine congrArg (V c main_v86) ?_
    funext a; apply Fin.ext
    match a with
    | ⟨0, _⟩ => show win3_3.index t (0 : Fin 2) * 1 + 1 * 0 = 0; omega
    | ⟨1, _⟩ => show win3_3.index t (1 : Fin 2) * 128 + 1 * q.val = q.val; omega

/-- An index of the array is in point t's block iff each coordinate is in the block's range on its axis. -/
theorem strip_mem3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v87).slice (win3_4.rect t)).set ↔ _
  rw [View.set_slice_whole, Rect.mem_set_unit]
  exact Iff.rfl

/-- The ten strips cover the array: row r lies in the strip of the point r / 5000, and every point writes back. -/
theorem strip_cover3 (i : S50000x128.Idx) :
    ∃ t : Fin cfg3.N, (cfg3.win 4).flush t = true ∧ i ∈ ((cfg3.win 4).blk t).view.set := by
  have hN : cfg3.N = 10 := N_3
  have hi0 : (i 0).val < 50000 := (i 0).isLt
  have hi1 : (i 1).val < 128 := (i 1).isLt
  obtain ⟨t, ht⟩ : ∃ t : Fin cfg3.N, t.val = (i 0).val / 5000 := ⟨⟨(i 0).val / 5000, by omega⟩, rfl⟩
  obtain ⟨-, -, -, -, -, -, -, -, e40, e41⟩ := strip_index3 t
  refine ⟨t, flush3_4 t, ?_⟩
  rw [strip_mem3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- After the launch the output array holds the epilogue of the arrays the launch found, index by index. -/
theorem final3 (c : Dev nD) :
    (dat3 V c).arrAt 4 cfg3.N
      = GcnStrips.combineHost (M := 50000) (N := 128) (by decide) (by decide) (by decide) 0x00000000#32
          (V c main_v83) (V c main_v48) (V c main_v85) (V c main_v86) :=
  (dat3 V c).arrAt_eq_of_cover 4 _ (fun t _ => strip_flushed3 V c t) (fun i => strip_cover3 i)

end Cert.KernelIdeal.RegionValue

end
-- ==== Proof.Region0.lean ====
/-
  The first dense launch: ten strips of 5000 rows of X, each multiplied by the whole of W and the bias row added,
  leave the array holding the host's dense layer of the whole X.
-/
import proofs.«173289_j28913719837314_1_alg».proof.Proof.Gen.KernelIdeal.Frame
import proofs.«173289_j28913719837314_1_alg».proof.Proof.LibGcnStrips
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem zero_offsets0 : (![0, 0] : Fin 2 → Nat) = fun _ => 0 := funext fun a => by fin_cases a <;> rfl

/-- The index maps over the ten points: the strip of X moves with the output strip and sits at column block 0;
    the weights and the bias row are always their one block; the output strip of point t is strip t. -/
theorem strips0 : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's result on a block holding rows o … o+4999 of X, the whole of W and the bias row, at (p, q), is the
    dense layer of the whole arrays at (o + p, q): rounding the operands to a narrower format is the identity over
    the extended reals. -/
theorem strip0_apply (X : FVec Ideal S50000x128 .f32) (W : FVec Ideal S128x128 .f32) (B : FVec Ideal S1x128 .f32)
    (x0 : Vec Ideal S5000x128 .f32) (x1 : Vec Ideal S128x128 .f32) (x2 : Vec Ideal S1x128 .f32)
    (o : Nat) (ho : ∀ p : Fin 5000, o + p.val < 50000)
    (hx : ∀ (p : Fin 5000) (k : Fin 128), x0 (ix2 p k) = X (ix2 ⟨o + p.val, ho p⟩ k))
    (hw : ∀ (k : Fin 128) (q : Fin 128), x1 (ix2 k q) = W (ix2 k q))
    (hb : ∀ q : Fin 128, x2 (ix2 (0 : Fin 1) q) = B (ix2 (0 : Fin 1) q)) (p : Fin 5000) (q : Fin 128) :
    k0_pay1 x0 x1 x2 (ix2 p q)
      = GcnStrips.denseHost (M := 50000) (K := 128) (N := 128) (by decide) X W B (ix2 ⟨o + p.val, ho p⟩ q) := by
  unfold k0_pay1
  exact GcnStrips.dense_strip_apply (m := 5000) (M := 50000) (K := 128) (N := 128) none X W B
    (truncf .bf16 x0 bitsLt_bf16_f32) (truncf .bf16 x1 bitsLt_bf16_f32) x2
    shapeCasts_S1x128_S1x128 broadcasts_S1x128_S5000x128 (by decide) o ho hx hw hb p q

/-- What point t writes back is block t of the dense layer of the arrays the launch found. -/
theorem flushed0_eq (c : Dev nD) (t : Fin cfg0.N) :
    (dat0 V c).flushed 3 t = ((cfg0.win 3).blk t).view.read (Elt Ideal)
      (GcnStrips.denseHost (M := 50000) (K := 128) (N := 128) (by decide) (V c main_arg0) (V c main_arg4) (V c main_v5)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S128x128) zero_offsets0,
    View.ld_unit_zero (S := S1x128) zero_offsets0]
  obtain ⟨e0, e1, e2, e3, e4, e5, e6, e7⟩ := strips0 t
  have ht : t.val < 10 := lt_of_lt_of_eq (t.isLt : t.val < grid0.N) N_0
  funext j
  obtain ⟨p, q, rfl⟩ : ∃ (p : Fin 5000) (q : Fin 128), j = ix2 p q := ⟨j 0, j 1, eq_ix2 j⟩
  have ho : ∀ p : Fin 5000, win0_3.index t (0 : Fin 2) * 5000 + p.val < 50000 := fun p => by
    have := p.isLt; omega
  have hx : ∀ (p : Fin 5000) (k : Fin 128), iblk0 V c 0 t (ix2 p k)
      = V c main_arg0 (ix2 ⟨win0_3.index t (0 : Fin 2) * 5000 + p.val, ho p⟩ k) := by
    intro p k
    show V c main_arg0 (((cfg0.win 0).blk t).view.emb (ix2 p k)) = _
    refine congrArg _ ?_
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  have hw : ∀ (k : Fin 128) (q : Fin 128), iblk0 V c 1 t (ix2 k q) = V c main_arg4 (ix2 k q) := by
    intro k q
    show V c main_arg4 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hb : ∀ q : Fin 128, iblk0 V c 2 t (ix2 (0 : Fin 1) q) = V c main_v5 (ix2 (0 : Fin 1) q) := by
    intro q
    show V c main_v5 (((cfg0.win 2).blk t).view.emb (ix2 (0 : Fin 1) q)) = _
    refine congrArg _ ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have ej : ((cfg0.win 3).blk t).view.emb (ix2 p q)
      = (ix2 ⟨win0_3.index t (0 : Fin 2) * 5000 + p.val, ho p⟩ q : S50000x128.Idx) := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  show k0_pay1 (iblk0 V c 0 t) (iblk0 V c 1 t) (iblk0 V c 2 t) (ix2 p q)
    = GcnStrips.denseHost (M := 50000) (K := 128) (N := 128) (by decide) (V c main_arg0) (V c main_arg4) (V c main_v5)
        (((cfg0.win 3).blk t).view.emb (ix2 p q))
  rw [ej]
  exact strip0_apply (V c main_arg0) (V c main_arg4) (V c main_v5) (iblk0 V c 0 t) (iblk0 V c 1 t) (iblk0 V c 2 t)
    (win0_3.index t (0 : Fin 2) * 5000) ho hx hw hb p q

/-- An index of the array is in point t's block iff each coordinate is in the block's range on its axis. -/
theorem mem_strip0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- Row r of the array is in the strip of the point numbered r / 5000, and every point writes its strip back. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; rw [hN]; omega
  obtain ⟨e0, e1, e2, e3, e4, e5, e6, e7⟩ := strips0 ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_strip0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- After the launch the output array holds the dense layer of the arrays the launch found, index by index. -/
theorem final0 (c : Dev nD) :
    (dat0 V c).arrAt 3 cfg0.N
      = GcnStrips.denseHost (M := 50000) (K := 128) (N := 128) (by decide) (V c main_arg0) (V c main_arg4) (V c main_v5) :=
  (dat0 V c).arrAt_eq_of_cover 3 _ (fun t _ => flushed0_eq V c t) cover0

end Cert.KernelIdeal.RegionValue

end
-- ==== Proof.Region1.lean ====
/-
  The first epilogue launch: ten strips of 5000 rows of the aggregate, the features and the degree column, with the
  bias row, leave the array holding the host's epilogue of the whole arrays.
-/
import proofs.«173289_j28913719837314_1_alg».proof.Proof.Gen.KernelIdeal.Frame
import proofs.«173289_j28913719837314_1_alg».proof.Proof.LibGcnStrips
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as a constant function. -/
theorem zero_offsets1 : (![0, 0] : Fin 2 → Nat) = fun _ => 0 := funext fun a => by fin_cases a <;> rfl

/-- The block index maps, decided over the ten grid points: the three row-indexed windows (aggregate, features,
    column) sit at the output window's row block and at lane block 0; the bias row's window is block (0, 0); the
    output's row block is the point's number and its lane block is 0. -/
theorem strip_index1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's arithmetic on a strip: if the four blocks hold rows o … o + 4999 of the aggregate, of the features and
    of the column, and the bias row, then max (a + d · h + b, 0) computed on the blocks is, at (p, q), the host's
    epilogue of the whole arrays at (o + p, q). -/
theorem strip_payload1
    (A H : FVec Ideal ⟨2, ![50000, 128]⟩ .f32) (D : FVec Ideal ⟨2, ![50000, 1]⟩ .f32) (B : FVec Ideal ⟨2, ![1, 128]⟩ .f32)
    (x0 x1 : Vec Ideal S5000x128 .f32) (x2 : Vec Ideal S5000x1 .f32) (x3 : Vec Ideal S1x128 .f32)
    (hc : (⟨2, ![50000, 1]⟩ : Shape).BroadcastsInDim ⟨2, ![50000, 128]⟩ ![0, 1])
    (hh : (⟨2, ![1, 128]⟩ : Shape).BroadcastsInDim ⟨2, ![50000, 128]⟩ ![0, 1])
    (h0 : (⟨0, ![]⟩ : Shape).BroadcastsInDim ⟨2, ![50000, 128]⟩ ![])
    (o : Nat) (ho : ∀ p : Fin 5000, o + p.val < 50000)
    (ha : ∀ (p : Fin 5000) (q : Fin 128), x0 (ix2 p q) = A (ix2 ⟨o + p.val, ho p⟩ q))
    (hh_ : ∀ (p : Fin 5000) (q : Fin 128), x1 (ix2 p q) = H (ix2 ⟨o + p.val, ho p⟩ q))
    (hd : ∀ p : Fin 5000, x2 (ix2 p (0 : Fin 1)) = D (ix2 ⟨o + p.val, ho p⟩ (0 : Fin 1)))
    (hb : ∀ q : Fin 128, x3 (ix2 (0 : Fin 1) q) = B (ix2 (0 : Fin 1) q)) (p : Fin 5000) (q : Fin 128) :
    k1_pay1 x0 x1 x2 x3 (ix2 p q)
      = GcnStrips.combineHost hc hh h0 0x00000000#32 A H D B (ix2 ⟨o + p.val, ho p⟩ q) := by
  unfold k1_pay1
  exact GcnStrips.combine_strip_apply A H D B x0 x1 x2 x3 _ _ _ _ _ hc hh h0 0x00000000#32 o ho ha hh_ hd hb p q

/-- What point t writes back is block t of the host's epilogue of the arrays the launch found. -/
theorem strip_flushed1 (c : Dev nD) (t : Fin cfg1.N) :
    (dat1 V c).flushed 4 t = ((cfg1.win 4).blk t).view.read (Elt Ideal)
      (GcnStrips.combineHost (M := 50000) (N := 128) (by decide) (by decide) (by decide) 0x00000000#32
        (V c main_v41) (V c main_v6) (V c main_v43) (V c main_v44)) := by
  show (cfg1.win 4).cut (grid1.coords t) ((dat1 V c).after 4 t) = _
  rw [after1_4]
  unfold out1_4
  rw [View.canon_unit_zero zero_offsets1]
  simp only [View.ld_unit_zero (S := S5000x128) zero_offsets1, View.ld_unit_zero (S := S5000x1) zero_offsets1,
    View.ld_unit_zero (S := S1x128) zero_offsets1]
  obtain ⟨e00, e01, e10, e11, e20, e21, e30, e31, e40, e41⟩ := strip_index1 t
  have hN : cfg1.N = 10 := N_1
  have ht : t.val < 10 := by have := t.isLt; omega
  have ho : ∀ p : Fin 5000, win1_4.index t (0 : Fin 2) * 5000 + p.val < 50000 := fun p => by
    have := p.isLt; omega
  funext j
  obtain ⟨p, q, rfl⟩ : ∃ (p : Fin 5000) (q : Fin 128), j = ix2 p q := ⟨j 0, j 1, eq_ix2 j⟩
  have hemb : ((cfg1.win 4).blk t).view.emb (ix2 p q)
      = (ix2 (⟨win1_4.index t (0 : Fin 2) * 5000 + p.val, ho p⟩ : Fin 50000) q : S50000x128.Idx) := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; omega
  show k1_pay1 (iblk1 V c 0 t) (iblk1 V c 1 t) (iblk1 V c 2 t) (iblk1 V c 3 t) (ix2 p q)
    = GcnStrips.combineHost (M := 50000) (N := 128) _ _ _ 0x00000000#32
        (V c main_v41) (V c main_v6) (V c main_v43) (V c main_v44) (((cfg1.win 4).blk t).view.emb (ix2 p q))
  rw [hemb]
  refine strip_payload1 (V c main_v41) (V c main_v6) (V c main_v43) (V c main_v44)
    (iblk1 V c 0 t) (iblk1 V c 1 t) (iblk1 V c 2 t) (iblk1 V c 3 t) _ _ _
    (win1_4.index t (0 : Fin 2) * 5000) ho ?_ ?_ ?_ ?_ p q
  · intro p q
    show V c main_v41 (((cfg1.win 0).blk t).view.emb (ix2 p q)) = _
    refine congrArg (V c main_v41) ?_
    funext a; apply Fin.ext
    match a with
    | ⟨0, _⟩ => show win1_0.index t (0 : Fin 2) * 5000 + 1 * p.val = win1_4.index t (0 : Fin 2) * 5000 + p.val; omega
    | ⟨1, _⟩ => show win1_0.index t (1 : Fin 2) * 128 + 1 * q.val = q.val; omega
  · intro p q
    show V c main_v6 (((cfg1.win 1).blk t).view.emb (ix2 p q)) = _
    refine congrArg (V c main_v6) ?_
    funext a; apply Fin.ext
    match a with
    | ⟨0, _⟩ => show win1_1.index t (0 : Fin 2) * 5000 + 1 * p.val = win1_4.index t (0 : Fin 2) * 5000 + p.val; omega
    | ⟨1, _⟩ => show win1_1.index t (1 : Fin 2) * 128 + 1 * q.val = q.val; omega
  · intro p
    show V c main_v43 (((cfg1.win 2).blk t).view.emb (ix2 p (0 : Fin 1))) = _
    refine congrArg (V c main_v43) ?_
    funext a; apply Fin.ext
    match a with
    | ⟨0, _⟩ => show win1_2.index t (0 : Fin 2) * 5000 + 1 * p.val = win1_4.index t (0 : Fin 2) * 5000 + p.val; omega
    | ⟨1, _⟩ => show win1_2.index t (1 : Fin 2) * 1 + 1 * 0 = 0; omega
  · intro q
    show V c main_v44 (((cfg1.win 3).blk t).view.emb (ix2 (0 : Fin 1) q)) = _
    refine congrArg (V c main_v44) ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega

/-- An index of the array is in point t's block iff each coordinate is in the block's range on its axis. -/
theorem strip_mem1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v45).slice (win1_4.rect t)).set ↔ _
  rw [View.set_slice_whole, Rect.mem_set_unit]
  exact Iff.rfl

/-- The ten strips cover the array: row r lies in the strip of the point r / 5000, and every point writes back. -/
theorem strip_cover1 (i : S50000x128.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, -, -, -, -, e40, e41⟩ := strip_index1 t
  refine ⟨t, flush1_4 t, ?_⟩
  rw [strip_mem1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After the launch the output array holds the epilogue of the arrays the launch found, index by index. -/
theorem final1 (c : Dev nD) :
    (dat1 V c).arrAt 4 cfg1.N
      = GcnStrips.combineHost (M := 50000) (N := 128) (by decide) (by decide) (by decide) 0x00000000#32
          (V c main_v41) (V c main_v6) (V c main_v43) (V c main_v44) :=
  (dat1 V c).arrAt_eq_of_cover 4 _ (fun t _ => strip_flushed1 V c t) (fun i => strip_cover1 i)

end Cert.KernelIdeal.RegionValue

end
-- ==== Proof.Walk1.lean ====
/-
  The first graph-convolution layer of the kernel's program is the reference's.

  The program's buffers are followed from the launch through its first two kernel launches. The edge lists are cut out
  of the edge-index argument once and are not written again. The first launch leaves X · W₁ (its bias row is the zero
  row). The host lines between the launches compute, from that product and the edge lists, the normalised aggregate,
  the squared inverse-root degrees as a column and the bias as a row; these are the reference's own lines, the column
  and the row laid out by a reshape where the reference broadcasts along a new axis, which is the same array. The
  second launch then leaves max (aggregate + degree column · product + bias row, 0): the reference's first layer.
-/
import proofs.«173289_j28913719837314_1_alg».proof.Proof.Gen.KernelIdeal.Frame
import proofs.«173289_j28913719837314_1_alg».proof.Proof.Gen.ReferenceIdeal.Read
import proofs.«173289_j28913719837314_1_alg».proof.Proof.LibGcnStrips
import proofs.«173289_j28913719837314_1_alg».proof.Proof.LibRowCast
import proofs.«173289_j28913719837314_1_alg».proof.Proof.Region0
import proofs.«173289_j28913719837314_1_alg».proof.Proof.Region1
import Idealize.ShloMosaic.Lib.StableHlo.Run

noncomputable section

namespace Cert.KernelIdeal.Walk

open Cert.KernelIdeal Cert.KernelIdeal.Gen Idealize.ShloMosaic Idealize.ShloMosaic.TcCoe Idealize.SL.Sem
open Idealize.ShloMosaic.StableHlo
open Idealize.ShloMosaic.ValueIdx
open Cert.ReferenceIdeal.Read (val_main_v1 val_main_v3 val_main_v4 val_main_v39 val_main_v40 val_main_v41 val_main_v45 val_main_v48 val_main_v49 val_main_v84 val_main_v85 val_main_v86 val_main_v90 val_main_v93 val_main_v106 val_main_v108 val_main_v111 val_main_v113 val_main_v115)

variable (m : (ℓ : Loc nD τ sig) → Buf (Elt Ideal) ℓ) (ρ : Dev nD → PrngReg) (c : Dev nD)

/-- The zero vector viewed as one row reads zero everywhere. -/
theorem zero_row_apply (q : Fin 128) :
    shapeCast S1x128 (broadcastInDim S128 ![] bcast_S_S128 (constant (F := Ideal) S_ .f32 0x00000000#32)) shapeCasts_S128_S1x128
      (ix2 (0 : Fin 1) q) = 0 := by
  refine (shapeCast_apply _ shapeCasts_S128_S1x128 (ix2 (0 : Fin 1) q) (ix1 q) ?_).trans ?_
  · rw [Shape.rowMajor_val_one, Shape.rowMajor_val_two]
    show q.val = 0 * 128 + q.val
    omega
  · rw [RowSpread.scalarInDim_apply, constant_apply]
    exact Ideal.ofBits_zero_f32

/-! ## Before the first launch -/

/-- The node features reach the first launch as launched. -/
theorem arg0_W1 : W1 m ρ c (Proc.devRef .tc main_arg0) = (m ((c : Thread nD τ).loc main_arg0)) := by
  show StableHlo.after hostOps0 (W0 m ρ c) (Proc.devRef .tc main_arg0) = _
  after_results_simp <;> rfl

/-- The first weight matrix reaches the first launch as launched. -/
theorem arg4_W1 : W1 m ρ c (Proc.devRef .tc main_arg4) = (m ((c : Thread nD τ).loc main_arg4)) := by
  show StableHlo.after hostOps0 (W0 m ρ c) (Proc.devRef .tc main_arg4) = _
  after_results_simp <;> rfl

/-- The source list is row 0 of the edge index. -/
theorem v1_W1 : W1 m ρ c (Proc.devRef .tc main_v1) = val_main_v1 (m ((c : Thread nD τ).loc main_arg1)) := by
  show StableHlo.after hostOps0 (W0 m ρ c) (Proc.devRef .tc main_v1) = _
  after_results
  rfl

/-- The destination list is row 1 of the edge index. -/
theorem v3_W1 : W1 m ρ c (Proc.devRef .tc main_v3) = val_main_v3 (m ((c : Thread nD τ).loc main_arg1)) := by
  show StableHlo.after hostOps0 (W0 m ρ c) (Proc.devRef .tc main_v3) = _
  after_results
  rfl

/-- The first launch's bias row is the zero row. -/
theorem v5_W1 (q : Fin 128) : (W1 m ρ c (Proc.devRef .tc main_v5) : S1x128.Idx → EReal) (ix2 (0 : Fin 1) q) = (0 : EReal) := by
  have e : (W1 m ρ c (Proc.devRef .tc main_v5) : S1x128.Idx → EReal)
      = shapeCast S1x128 (broadcastInDim S128 ![] bcast_S_S128 (constant (F := Ideal) S_ .f32 0x00000000#32)) shapeCasts_S128_S1x128 := by
    show StableHlo.after hostOps0 (W0 m ρ c) (Proc.devRef .tc main_v5) = _
    after_results
    rfl
  rw [e]
  exact zero_row_apply q

/-! ## The first launch: X · W₁ -/

/-- After the first launch its output array holds the reference's product X · W₁. -/
theorem v6_W2 : W2 m ρ c (Proc.devRef .tc main_v6) = val_main_v4 (m ((c : Thread nD τ).loc main_arg0)) (m ((c : Thread nD τ).loc main_arg4)) := by
  refine (W2_arr m ρ c 3).trans ((RegionValue.final0 (V1 m ρ) c).trans ?_)
  refine (GcnStrips.denseHost_zero_row _ _ _ _ (v5_W1 m ρ c)).trans ?_
  show Host.dotGeneral (F := Ideal) (φ₁ := .f32) (φ₂ := .f32) (DotDims.plain 50000 128 128) none (W1 m ρ c (Proc.devRef .tc main_arg0)) (W1 m ρ c (Proc.devRef .tc main_arg4)) = _
  rw [arg0_W1, arg4_W1]
  rfl

/-- The source list is not an array of the first launch. -/
theorem v1_W2 : W2 m ρ c (Proc.devRef .tc main_v1) = val_main_v1 (m ((c : Thread nD τ).loc main_arg1)) := by
  have h1 : W1 m ρ c (Proc.devRef .tc main_v1) = val_main_v1 (m ((c : Thread nD τ).loc main_arg1)) := v1_W1 m ρ c
  have h2 : W2 m ρ c (Proc.devRef .tc main_v1) = val_main_v1 (m ((c : Thread nD τ).loc main_arg1)) := (W2_of_ne m ρ c main_v1 (by decide)).trans h1
  exact h2

/-- The destination list is not an array of the first launch. -/
theorem v3_W2 : W2 m ρ c (Proc.devRef .tc main_v3) = val_main_v3 (m ((c : Thread nD τ).loc main_arg1)) := by
  have h1 : W1 m ρ c (Proc.devRef .tc main_v3) = val_main_v3 (m ((c : Thread nD τ).loc main_arg1)) := v3_W1 m ρ c
  have h2 : W2 m ρ c (Proc.devRef .tc main_v3) = val_main_v3 (m ((c : Thread nD τ).loc main_arg1)) := (W2_of_ne m ρ c main_v3 (by decide)).trans h1
  exact h2

/-- The first bias reaches the host lines after the first launch as launched. -/
theorem arg5_W2 : W2 m ρ c (Proc.devRef .tc main_arg5) = (m ((c : Thread nD τ).loc main_arg5)) := by
  have h0 : W0 m ρ c (Proc.devRef .tc main_arg5) = (m ((c : Thread nD τ).loc main_arg5)) := rfl
  have h1 : W1 m ρ c (Proc.devRef .tc main_arg5) = (m ((c : Thread nD τ).loc main_arg5)) := by
    show StableHlo.after hostOps0 (W0 m ρ c) (Proc.devRef .tc main_arg5) = _
    after_results_simp <;> exact h0
  have h2 : W2 m ρ c (Proc.devRef .tc main_arg5) = (m ((c : Thread nD τ).loc main_arg5)) := (W2_of_ne m ρ c main_arg5 (by decide)).trans h1
  exact h2

/-! ## The host lines between the first two launches -/

/-- The normalised aggregate of the product over the edges is the reference's. -/
theorem v41_W3 : W3 m ρ c (Proc.devRef .tc main_v41) = val_main_v39 (m ((c : Thread nD τ).loc main_arg0)) (m ((c : Thread nD τ).loc main_arg1)) (m ((c : Thread nD τ).loc main_arg4)) := by
  show StableHlo.after hostOps1 (W2 m ρ c) (Proc.devRef .tc main_v41) = _
  after_results_simp
  rw [v6_W2, v1_W2, v3_W2]
  rfl

/-- The product is not written by these lines. -/
theorem v6_W3 : W3 m ρ c (Proc.devRef .tc main_v6) = val_main_v4 (m ((c : Thread nD τ).loc main_arg0)) (m ((c : Thread nD τ).loc main_arg4)) := by
  show StableHlo.after hostOps1 (W2 m ρ c) (Proc.devRef .tc main_v6) = _
  after_results_simp <;> exact v6_W2 m ρ c

/-- The squared inverse-root degrees, reshaped to a column, are the reference's broadcast of them along a new axis. -/
theorem v43_W3 : W3 m ρ c (Proc.devRef .tc main_v43) = val_main_v41 (m ((c : Thread nD τ).loc main_arg1)) := by
  show StableHlo.after hostOps1 (W2 m ρ c) (Proc.devRef .tc main_v43) = _
  after_results_simp
  rw [v3_W2]
  exact (show _ = shapeCast S50000x1 (val_main_v40 (F := Ideal) (m ((c : Thread nD τ).loc main_arg1))) shapeCasts_S50000_S50000x1 from rfl).trans
    (GcnStrips.shapeCast_col_eq_broadcastInDim (a := 50000) _ _ (by decide))

/-- The bias, reshaped to a row, is the reference's broadcast of it along a new axis. -/
theorem v44_W3 : W3 m ρ c (Proc.devRef .tc main_v44) = val_main_v45 (m ((c : Thread nD τ).loc main_arg5)) := by
  show StableHlo.after hostOps1 (W2 m ρ c) (Proc.devRef .tc main_v44) = _
  after_results_simp
  rw [arg5_W2]
  exact (show _ = shapeCast S1x128 (m ((c : Thread nD τ).loc main_arg5)) shapeCasts_S128_S1x128 from rfl).trans
    (RowCast.shapeCast_row_eq_broadcastInDim (n := 128) _ _ (by decide))

/-! ## The second launch: the first layer's epilogue -/

/-- After the second launch its output array holds the reference's first layer. -/
theorem v45_W4 : W4 m ρ c (Proc.devRef .tc main_v45) = val_main_v48 (m ((c : Thread nD τ).loc main_arg0)) (m ((c : Thread nD τ).loc main_arg1)) (m ((c : Thread nD τ).loc main_arg4)) (m ((c : Thread nD τ).loc main_arg5)) := by
  refine (W4_arr m ρ c 4).trans ((RegionValue.final1 (V3 m ρ) c).trans ?_)
  show GcnStrips.combineHost _ _ _ 0x00000000#32 (W3 m ρ c (Proc.devRef .tc main_v41)) (W3 m ρ c (Proc.devRef .tc main_v6))
    (W3 m ρ c (Proc.devRef .tc main_v43)) (W3 m ρ c (Proc.devRef .tc main_v44)) = _
  rw [v41_W3, v6_W3, v43_W3, v44_W3]
  rfl

/-- The source list is written by neither the host lines nor the second launch. -/
theorem v1_W4 : W4 m ρ c (Proc.devRef .tc main_v1) = val_main_v1 (m ((c : Thread nD τ).loc main_arg1)) := by
  have h2 : W2 m ρ c (Proc.devRef .tc main_v1) = val_main_v1 (m ((c : Thread nD τ).loc main_arg1)) := v1_W2 m ρ c
  have h3 : W3 m ρ c (Proc.devRef .tc main_v1) = val_main_v1 (m ((c : Thread nD τ).loc main_arg1)) := by
    show StableHlo.after hostOps1 (W2 m ρ c) (Proc.devRef .tc main_v1) = _
    after_results_simp <;> exact h2
  have h4 : W4 m ρ c (Proc.devRef .tc main_v1) = val_main_v1 (m ((c : Thread nD τ).loc main_arg1)) := (W4_of_ne m ρ c main_v1 (by decide)).trans h3
  exact h4

/-- The destination list is written by neither the host lines nor the second launch. -/
theorem v3_W4 : W4 m ρ c (Proc.devRef .tc main_v3) = val_main_v3 (m ((c : Thread nD τ).loc main_arg1)) := by
  have h2 : W2 m ρ c (Proc.devRef .tc main_v3) = val_main_v3 (m ((c : Thread nD τ).loc main_arg1)) := v3_W2 m ρ c
  have h3 : W3 m ρ c (Proc.devRef .tc main_v3) = val_main_v3 (m ((c : Thread nD τ).loc main_arg1)) := by
    show StableHlo.after hostOps1 (W2 m ρ c) (Proc.devRef .tc main_v3) = _
    after_results_simp <;> exact h2
  have h4 : W4 m ρ c (Proc.devRef .tc main_v3) = val_main_v3 (m ((c : Thread nD τ).loc main_arg1)) := (W4_of_ne m ρ c main_v3 (by decide)).trans h3
  exact h4

end Cert.KernelIdeal.Walk

end
-- ==== Proof.Walk2.lean ====
/-
  The second graph-convolution layer of the kernel's program is the reference's.

  From the first layer's output H₁ the third launch leaves H₁ · W₂ (zero bias row again), the host lines compute the
  aggregate, the degree column and the bias row exactly as for the first layer, and the fourth launch leaves
  max (aggregate + degree column · product + bias row, 0): the reference's second layer.
-/
import proofs.«173289_j28913719837314_1_alg».proof.Proof.Gen.KernelIdeal.Frame
import proofs.«173289_j28913719837314_1_alg».proof.Proof.Gen.ReferenceIdeal.Read
import proofs.«173289_j28913719837314_1_alg».proof.Proof.LibGcnStrips
import proofs.«173289_j28913719837314_1_alg».proof.Proof.LibRowCast
import proofs.«173289_j28913719837314_1_alg».proof.Proof.Region2
import proofs.«173289_j28913719837314_1_alg».proof.Proof.Region3
import proofs.«173289_j28913719837314_1_alg».proof.Proof.Walk1
import Idealize.ShloMosaic.Lib.StableHlo.Run

noncomputable section

namespace Cert.KernelIdeal.Walk

open Cert.KernelIdeal Cert.KernelIdeal.Gen Idealize.ShloMosaic Idealize.ShloMosaic.TcCoe Idealize.SL.Sem
open Idealize.ShloMosaic.StableHlo
open Idealize.ShloMosaic.ValueIdx
open Cert.ReferenceIdeal.Read (val_main_v1 val_main_v3 val_main_v4 val_main_v39 val_main_v40 val_main_v41 val_main_v45 val_main_v48 val_main_v49 val_main_v84 val_main_v85 val_main_v86 val_main_v90 val_main_v93 val_main_v106 val_main_v108 val_main_v111 val_main_v113 val_main_v115)

variable (m : (ℓ : Loc nD τ sig) → Buf (Elt Ideal) ℓ) (ρ : Dev nD → PrngReg) (c : Dev nD)

/-! ## Between the second and the third launch -/

/-- The first layer's output is not written by the host lines before the third launch. -/
theorem v45_W5 : W5 m ρ c (Proc.devRef .tc main_v45) = val_main_v48 (m ((c : Thread nD τ).loc main_arg0)) (m ((c : Thread nD τ).loc main_arg1)) (m ((c : Thread nD τ).loc main_arg4)) (m ((c : Thread nD τ).loc main_arg5)) := by
  show StableHlo.after hostOps2 (W4 m ρ c) (Proc.devRef .tc main_v45) = _
  after_results_simp <;> exact v45_W4 m ρ c

/-- The second weight matrix reaches the third launch as launched. -/
theorem arg6_W5 : W5 m ρ c (Proc.devRef .tc main_arg6) = (m ((c : Thread nD τ).loc main_arg6)) := by
  have h0 : W0 m ρ c (Proc.devRef .tc main_arg6) = (m ((c : Thread nD τ).loc main_arg6)) := rfl
  have h1 : W1 m ρ c (Proc.devRef .tc main_arg6) = (m ((c : Thread nD τ).loc main_arg6)) := by
    show StableHlo.after hostOps0 (W0 m ρ c) (Proc.devRef .tc main_arg6) = _
    after_results_simp <;> exact h0
  have h2 : W2 m ρ c (Proc.devRef .tc main_arg6) = (m ((c : Thread nD τ).loc main_arg6)) := (W2_of_ne m ρ c main_arg6 (by decide)).trans h1
  have h3 : W3 m ρ c (Proc.devRef .tc main_arg6) = (m ((c : Thread nD τ).loc main_arg6)) := by
    show StableHlo.after hostOps1 (W2 m ρ c) (Proc.devRef .tc main_arg6) = _
    after_results_simp <;> exact h2
  have h4 : W4 m ρ c (Proc.devRef .tc main_arg6) = (m ((c : Thread nD τ).loc main_arg6)) := (W4_of_ne m ρ c main_arg6 (by decide)).trans h3
  have h5 : W5 m ρ c (Proc.devRef .tc main_arg6) = (m ((c : Thread nD τ).loc main_arg6)) := by
    show StableHlo.after hostOps2 (W4 m ρ c) (Proc.devRef .tc main_arg6) = _
    after_results_simp <;> exact h4
  exact h5

/-- The third launch's bias row is the zero row. -/
theorem v47_W5 (q : Fin 128) : (W5 m ρ c (Proc.devRef .tc main_v47) : S1x128.Idx → EReal) (ix2 (0 : Fin 1) q) = (0 : EReal) := by
  have e : (W5 m ρ c (Proc.devRef .tc main_v47) : S1x128.Idx → EReal)
      = shapeCast S1x128 (broadcastInDim S128 ![] bcast_S_S128 (constant (F := Ideal) S_ .f32 0x00000000#32)) shapeCasts_S128_S1x128 := by
    show StableHlo.after hostOps2 (W4 m ρ c) (Proc.devRef .tc main_v47) = _
    after_results
    rfl
  rw [e]
  exact zero_row_apply q

/-! ## The third launch: H₁ · W₂ -/

/-- After the third launch its output array holds the reference's product H₁ · W₂. -/
theorem v48_W6 : W6 m ρ c (Proc.devRef .tc main_v48) = val_main_v49 (m ((c : Thread nD τ).loc main_arg0)) (m ((c : Thread nD τ).loc main_arg1)) (m ((c : Thread nD τ).loc main_arg4)) (m ((c : Thread nD τ).loc main_arg5)) (m ((c : Thread nD τ).loc main_arg6)) := by
  refine (W6_arr m ρ c 3).trans ((RegionValue.final2 (V5 m ρ) c).trans ?_)
  refine (GcnStrips.denseHost_zero_row _ _ _ _ (v47_W5 m ρ c)).trans ?_
  show Host.dotGeneral (F := Ideal) (φ₁ := .f32) (φ₂ := .f32) (DotDims.plain 50000 128 128) none (W5 m ρ c (Proc.devRef .tc main_v45)) (W5 m ρ c (Proc.devRef .tc main_arg6)) = _
  rw [v45_W5, arg6_W5]
  rfl

/-- The source list reaches the second layer's host lines unchanged. -/
theorem v1_W6 : W6 m ρ c (Proc.devRef .tc main_v1) = val_main_v1 (m ((c : Thread nD τ).loc main_arg1)) := by
  have h4 : W4 m ρ c (Proc.devRef .tc main_v1) = val_main_v1 (m ((c : Thread nD τ).loc main_arg1)) := v1_W4 m ρ c
  have h5 : W5 m ρ c (Proc.devRef .tc main_v1) = val_main_v1 (m ((c : Thread nD τ).loc main_arg1)) := by
    show StableHlo.after hostOps2 (W4 m ρ c) (Proc.devRef .tc main_v1) = _
    after_results_simp <;> exact h4
  have h6 : W6 m ρ c (Proc.devRef .tc main_v1) = val_main_v1 (m ((c : Thread nD τ).loc main_arg1)) := (W6_of_ne m ρ c main_v1 (by decide)).trans h5
  exact h6

/-- The destination list reaches the second layer's host lines unchanged. -/
theorem v3_W6 : W6 m ρ c (Proc.devRef .tc main_v3) = val_main_v3 (m ((c : Thread nD τ).loc main_arg1)) := by
  have h4 : W4 m ρ c (Proc.devRef .tc main_v3) = val_main_v3 (m ((c : Thread nD τ).loc main_arg1)) := v3_W4 m ρ c
  have h5 : W5 m ρ c (Proc.devRef .tc main_v3) = val_main_v3 (m ((c : Thread nD τ).loc main_arg1)) := by
    show StableHlo.after hostOps2 (W4 m ρ c) (Proc.devRef .tc main_v3) = _
    after_results_simp <;> exact h4
  have h6 : W6 m ρ c (Proc.devRef .tc main_v3) = val_main_v3 (m ((c : Thread nD τ).loc main_arg1)) := (W6_of_ne m ρ c main_v3 (by decide)).trans h5
  exact h6

/-- The second bias reaches the second layer's host lines as launched. -/
theorem arg7_W6 : W6 m ρ c (Proc.devRef .tc main_arg7) = (m ((c : Thread nD τ).loc main_arg7)) := by
  have h0 : W0 m ρ c (Proc.devRef .tc main_arg7) = (m ((c : Thread nD τ).loc main_arg7)) := rfl
  have h1 : W1 m ρ c (Proc.devRef .tc main_arg7) = (m ((c : Thread nD τ).loc main_arg7)) := by
    show StableHlo.after hostOps0 (W0 m ρ c) (Proc.devRef .tc main_arg7) = _
    after_results_simp <;> exact h0
  have h2 : W2 m ρ c (Proc.devRef .tc main_arg7) = (m ((c : Thread nD τ).loc main_arg7)) := (W2_of_ne m ρ c main_arg7 (by decide)).trans h1
  have h3 : W3 m ρ c (Proc.devRef .tc main_arg7) = (m ((c : Thread nD τ).loc main_arg7)) := by
    show StableHlo.after hostOps1 (W2 m ρ c) (Proc.devRef .tc main_arg7) = _
    after_results_simp <;> exact h2
  have h4 : W4 m ρ c (Proc.devRef .tc main_arg7) = (m ((c : Thread nD τ).loc main_arg7)) := (W4_of_ne m ρ c main_arg7 (by decide)).trans h3
  have h5 : W5 m ρ c (Proc.devRef .tc main_arg7) = (m ((c : Thread nD τ).loc main_arg7)) := by
    show StableHlo.after hostOps2 (W4 m ρ c) (Proc.devRef .tc main_arg7) = _
    after_results_simp <;> exact h4
  have h6 : W6 m ρ c (Proc.devRef .tc main_arg7) = (m ((c : Thread nD τ).loc main_arg7)) := (W6_of_ne m ρ c main_arg7 (by decide)).trans h5
  exact h6

/-! ## The host lines between the third and the fourth launch -/

/-- The normalised aggregate of the second product over the edges is the reference's. -/
theorem v83_W7 : W7 m ρ c (Proc.devRef .tc main_v83) = val_main_v84 (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W6 m ρ c) (Proc.devRef .tc main_v83) = _
  after_results_simp
  rw [v48_W6, v1_W6, v3_W6]
  rfl

/-- The second product is not written by these lines. -/
theorem v48_W7 : W7 m ρ c (Proc.devRef .tc main_v48) = val_main_v49 (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W6 m ρ c) (Proc.devRef .tc main_v48) = _
  after_results_simp <;> exact v48_W6 m ρ c

/-- The squared inverse-root degrees, reshaped to a column, are the reference's broadcast of them along a new axis. -/
theorem v85_W7 : W7 m ρ c (Proc.devRef .tc main_v85) = val_main_v86 (m ((c : Thread nD τ).loc main_arg1)) := by
  show StableHlo.after hostOps3 (W6 m ρ c) (Proc.devRef .tc main_v85) = _
  after_results_simp
  rw [v3_W6]
  exact (show _ = shapeCast S50000x1 (val_main_v85 (F := Ideal) (m ((c : Thread nD τ).loc main_arg1))) shapeCasts_S50000_S50000x1 from rfl).trans
    (GcnStrips.shapeCast_col_eq_broadcastInDim (a := 50000) _ _ (by decide))

/-- The second bias, reshaped to a row, is the reference's broadcast of it along a new axis. -/
theorem v86_W7 : W7 m ρ c (Proc.devRef .tc main_v86) = val_main_v90 (m ((c : Thread nD τ).loc main_arg7)) := by
  show StableHlo.after hostOps3 (W6 m ρ c) (Proc.devRef .tc main_v86) = _
  after_results_simp
  rw [arg7_W6]
  exact (show _ = shapeCast S1x128 (m ((c : Thread nD τ).loc main_arg7)) shapeCasts_S128_S1x128 from rfl).trans
    (RowCast.shapeCast_row_eq_broadcastInDim (n := 128) _ _ (by decide))

/-! ## The fourth launch: the second layer's epilogue -/

/-- After the fourth launch its output array holds the reference's second layer. -/
theorem v87_W8 : W8 m ρ c (Proc.devRef .tc main_v87) = val_main_v93 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W8_arr m ρ c 4).trans ((RegionValue.final3 (V7 m ρ) c).trans ?_)
  show GcnStrips.combineHost _ _ _ 0x00000000#32 (W7 m ρ c (Proc.devRef .tc main_v83)) (W7 m ρ c (Proc.devRef .tc main_v48))
    (W7 m ρ c (Proc.devRef .tc main_v85)) (W7 m ρ c (Proc.devRef .tc main_v86)) = _
  rw [v83_W7, v48_W7, v85_W7, v86_W7]
  rfl

end Cert.KernelIdeal.Walk

end
-- ==== Proof.Walk3.lean ====
/-
  The pooling and the classifier of the kernel's program are the reference's.

  The host lines after the fourth launch pool the second layer's output over the graphs (a segment sum divided by the
  clamped counts) and set the graph features beside it: the reference's own lines. The fifth launch leaves
  max (Z · Wc₁ + bc₁, 0) and the sixth leaves that times Wc₂ plus bc₂, each bias reshaped to a row where the
  reference broadcasts it along a new axis. So the program's result array ends at the reference's result as a function
  of the twelve argument arrays.
-/
import proofs.«173289_j28913719837314_1_alg».proof.Proof.Gen.KernelIdeal.Frame
import proofs.«173289_j28913719837314_1_alg».proof.Proof.Gen.ReferenceIdeal.Read
import proofs.«173289_j28913719837314_1_alg».proof.Proof.LibGcnStrips
import proofs.«173289_j28913719837314_1_alg».proof.Proof.LibRowCast
import proofs.«173289_j28913719837314_1_alg».proof.Proof.Region4
import proofs.«173289_j28913719837314_1_alg».proof.Proof.Region5
import proofs.«173289_j28913719837314_1_alg».proof.Proof.Walk2
import Idealize.ShloMosaic.Lib.StableHlo.Run

noncomputable section

namespace Cert.KernelIdeal.Walk

open Cert.KernelIdeal Cert.KernelIdeal.Gen Idealize.ShloMosaic Idealize.ShloMosaic.TcCoe Idealize.SL.Sem
open Idealize.ShloMosaic.StableHlo
open Idealize.ShloMosaic.ValueIdx
open Cert.ReferenceIdeal.Read (val_main_v1 val_main_v3 val_main_v4 val_main_v39 val_main_v40 val_main_v41 val_main_v45 val_main_v48 val_main_v49 val_main_v84 val_main_v85 val_main_v86 val_main_v90 val_main_v93 val_main_v105 val_main_v106 val_main_v108 val_main_v111 val_main_v113 val_main_v115)

variable (m : (ℓ : Loc nD τ sig) → Buf (Elt Ideal) ℓ) (ρ : Dev nD → PrngReg) (c : Dev nD)

/-! ## The host lines between the fourth and the fifth launch -/

/-- The graph assignment reaches the pooling lines as launched. -/
theorem arg2_W8 : W8 m ρ c (Proc.devRef .tc main_arg2) = (m ((c : Thread nD τ).loc main_arg2)) := by
  have h0 : W0 m ρ c (Proc.devRef .tc main_arg2) = (m ((c : Thread nD τ).loc main_arg2)) := rfl
  have h1 : W1 m ρ c (Proc.devRef .tc main_arg2) = (m ((c : Thread nD τ).loc main_arg2)) := by
    show StableHlo.after hostOps0 (W0 m ρ c) (Proc.devRef .tc main_arg2) = _
    after_results_simp <;> exact h0
  have h2 : W2 m ρ c (Proc.devRef .tc main_arg2) = (m ((c : Thread nD τ).loc main_arg2)) := (W2_of_ne m ρ c main_arg2 (by decide)).trans h1
  have h3 : W3 m ρ c (Proc.devRef .tc main_arg2) = (m ((c : Thread nD τ).loc main_arg2)) := by
    show StableHlo.after hostOps1 (W2 m ρ c) (Proc.devRef .tc main_arg2) = _
    after_results_simp <;> exact h2
  have h4 : W4 m ρ c (Proc.devRef .tc main_arg2) = (m ((c : Thread nD τ).loc main_arg2)) := (W4_of_ne m ρ c main_arg2 (by decide)).trans h3
  have h5 : W5 m ρ c (Proc.devRef .tc main_arg2) = (m ((c : Thread nD τ).loc main_arg2)) := by
    show StableHlo.after hostOps2 (W4 m ρ c) (Proc.devRef .tc main_arg2) = _
    after_results_simp <;> exact h4
  have h6 : W6 m ρ c (Proc.devRef .tc main_arg2) = (m ((c : Thread nD τ).loc main_arg2)) := (W6_of_ne m ρ c main_arg2 (by decide)).trans h5
  have h7 : W7 m ρ c (Proc.devRef .tc main_arg2) = (m ((c : Thread nD τ).loc main_arg2)) := by
    show StableHlo.after hostOps3 (W6 m ρ c) (Proc.devRef .tc main_arg2) = _
    after_results_simp <;> exact h6
  have h8 : W8 m ρ c (Proc.devRef .tc main_arg2) = (m ((c : Thread nD τ).loc main_arg2)) := (W8_of_ne m ρ c main_arg2 (by decide)).trans h7
  exact h8

/-- The graph features reach the pooling lines as launched. -/
theorem arg3_W8 : W8 m ρ c (Proc.devRef .tc main_arg3) = (m ((c : Thread nD τ).loc main_arg3)) := by
  have h0 : W0 m ρ c (Proc.devRef .tc main_arg3) = (m ((c : Thread nD τ).loc main_arg3)) := rfl
  have h1 : W1 m ρ c (Proc.devRef .tc main_arg3) = (m ((c : Thread nD τ).loc main_arg3)) := by
    show StableHlo.after hostOps0 (W0 m ρ c) (Proc.devRef .tc main_arg3) = _
    after_results_simp <;> exact h0
  have h2 : W2 m ρ c (Proc.devRef .tc main_arg3) = (m ((c : Thread nD τ).loc main_arg3)) := (W2_of_ne m ρ c main_arg3 (by decide)).trans h1
  have h3 : W3 m ρ c (Proc.devRef .tc main_arg3) = (m ((c : Thread nD τ).loc main_arg3)) := by
    show StableHlo.after hostOps1 (W2 m ρ c) (Proc.devRef .tc main_arg3) = _
    after_results_simp <;> exact h2
  have h4 : W4 m ρ c (Proc.devRef .tc main_arg3) = (m ((c : Thread nD τ).loc main_arg3)) := (W4_of_ne m ρ c main_arg3 (by decide)).trans h3
  have h5 : W5 m ρ c (Proc.devRef .tc main_arg3) = (m ((c : Thread nD τ).loc main_arg3)) := by
    show StableHlo.after hostOps2 (W4 m ρ c) (Proc.devRef .tc main_arg3) = _
    after_results_simp <;> exact h4
  have h6 : W6 m ρ c (Proc.devRef .tc main_arg3) = (m ((c : Thread nD τ).loc main_arg3)) := (W6_of_ne m ρ c main_arg3 (by decide)).trans h5
  have h7 : W7 m ρ c (Proc.devRef .tc main_arg3) = (m ((c : Thread nD τ).loc main_arg3)) := by
    show StableHlo.after hostOps3 (W6 m ρ c) (Proc.devRef .tc main_arg3) = _
    after_results_simp <;> exact h6
  have h8 : W8 m ρ c (Proc.devRef .tc main_arg3) = (m ((c : Thread nD τ).loc main_arg3)) := (W8_of_ne m ρ c main_arg3 (by decide)).trans h7
  exact h8

/-- The classifier's first bias reaches the pooling lines as launched. -/
theorem arg9_W8 : W8 m ρ c (Proc.devRef .tc main_arg9) = (m ((c : Thread nD τ).loc main_arg9)) := by
  have h0 : W0 m ρ c (Proc.devRef .tc main_arg9) = (m ((c : Thread nD τ).loc main_arg9)) := rfl
  have h1 : W1 m ρ c (Proc.devRef .tc main_arg9) = (m ((c : Thread nD τ).loc main_arg9)) := by
    show StableHlo.after hostOps0 (W0 m ρ c) (Proc.devRef .tc main_arg9) = _
    after_results_simp <;> exact h0
  have h2 : W2 m ρ c (Proc.devRef .tc main_arg9) = (m ((c : Thread nD τ).loc main_arg9)) := (W2_of_ne m ρ c main_arg9 (by decide)).trans h1
  have h3 : W3 m ρ c (Proc.devRef .tc main_arg9) = (m ((c : Thread nD τ).loc main_arg9)) := by
    show StableHlo.after hostOps1 (W2 m ρ c) (Proc.devRef .tc main_arg9) = _
    after_results_simp <;> exact h2
  have h4 : W4 m ρ c (Proc.devRef .tc main_arg9) = (m ((c : Thread nD τ).loc main_arg9)) := (W4_of_ne m ρ c main_arg9 (by decide)).trans h3
  have h5 : W5 m ρ c (Proc.devRef .tc main_arg9) = (m ((c : Thread nD τ).loc main_arg9)) := by
    show StableHlo.after hostOps2 (W4 m ρ c) (Proc.devRef .tc main_arg9) = _
    after_results_simp <;> exact h4
  have h6 : W6 m ρ c (Proc.devRef .tc main_arg9) = (m ((c : Thread nD τ).loc main_arg9)) := (W6_of_ne m ρ c main_arg9 (by decide)).trans h5
  have h7 : W7 m ρ c (Proc.devRef .tc main_arg9) = (m ((c : Thread nD τ).loc main_arg9)) := by
    show StableHlo.after hostOps3 (W6 m ρ c) (Proc.devRef .tc main_arg9) = _
    after_results_simp <;> exact h6
  have h8 : W8 m ρ c (Proc.devRef .tc main_arg9) = (m ((c : Thread nD τ).loc main_arg9)) := (W8_of_ne m ρ c main_arg9 (by decide)).trans h7
  exact h8

/-- Two arrays set side by side depend on the two arrays only. -/
theorem concat_pair_congr {α : Type} {t : Shape} {d : Fin t.rank} {s1 s2 : Shape} {a a' : s1.Idx → α} {b b' : s2.Idx → α}
    (h : Shape.Concatenates [s1, s2] t d) (ha : a = a') (hb : b = b') :
    concatenate t d [⟨s1, a⟩, ⟨s2, b⟩] h = concatenate t d [⟨s1, a'⟩, ⟨s2, b'⟩] h := by
  subst ha hb
  rfl

/-- The pooled features beside the graph features are the reference's. -/
theorem v100_W9 : W9 m ρ c (Proc.devRef .tc main_v100) = val_main_v106 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W8 m ρ c) (Proc.devRef .tc main_v100) = _
  after_results_simp
  refine Eq.trans (concat_pair_congr (a' := val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (b' := (m ((c : Thread nD τ).loc main_arg3))) _ ?_ ?_) rfl
  · after_results_simp
    rw [v87_W8, arg2_W8]
    rfl
  · after_results_simp <;> exact arg3_W8 m ρ c

/-- The classifier's first bias, reshaped to a row, is the reference's broadcast of it along a new axis. -/
theorem v101_W9 : W9 m ρ c (Proc.devRef .tc main_v101) = val_main_v108 (m ((c : Thread nD τ).loc main_arg9)) := by
  show StableHlo.after hostOps4 (W8 m ρ c) (Proc.devRef .tc main_v101) = _
  after_results_simp
  rw [arg9_W8]
  exact (show _ = shapeCast S1x64 (m ((c : Thread nD τ).loc main_arg9)) shapeCasts_S64_S1x64 from rfl).trans
    (RowCast.shapeCast_row_eq_broadcastInDim (n := 64) _ _ (by decide))

/-- The classifier's first weights reach the fifth launch as launched. -/
theorem arg8_W9 : W9 m ρ c (Proc.devRef .tc main_arg8) = (m ((c : Thread nD τ).loc main_arg8)) := by
  have h0 : W0 m ρ c (Proc.devRef .tc main_arg8) = (m ((c : Thread nD τ).loc main_arg8)) := rfl
  have h1 : W1 m ρ c (Proc.devRef .tc main_arg8) = (m ((c : Thread nD τ).loc main_arg8)) := by
    show StableHlo.after hostOps0 (W0 m ρ c) (Proc.devRef .tc main_arg8) = _
    after_results_simp <;> exact h0
  have h2 : W2 m ρ c (Proc.devRef .tc main_arg8) = (m ((c : Thread nD τ).loc main_arg8)) := (W2_of_ne m ρ c main_arg8 (by decide)).trans h1
  have h3 : W3 m ρ c (Proc.devRef .tc main_arg8) = (m ((c : Thread nD τ).loc main_arg8)) := by
    show StableHlo.after hostOps1 (W2 m ρ c) (Proc.devRef .tc main_arg8) = _
    after_results_simp <;> exact h2
  have h4 : W4 m ρ c (Proc.devRef .tc main_arg8) = (m ((c : Thread nD τ).loc main_arg8)) := (W4_of_ne m ρ c main_arg8 (by decide)).trans h3
  have h5 : W5 m ρ c (Proc.devRef .tc main_arg8) = (m ((c : Thread nD τ).loc main_arg8)) := by
    show StableHlo.after hostOps2 (W4 m ρ c) (Proc.devRef .tc main_arg8) = _
    after_results_simp <;> exact h4
  have h6 : W6 m ρ c (Proc.devRef .tc main_arg8) = (m ((c : Thread nD τ).loc main_arg8)) := (W6_of_ne m ρ c main_arg8 (by decide)).trans h5
  have h7 : W7 m ρ c (Proc.devRef .tc main_arg8) = (m ((c : Thread nD τ).loc main_arg8)) := by
    show StableHlo.after hostOps3 (W6 m ρ c) (Proc.devRef .tc main_arg8) = _
    after_results_simp <;> exact h6
  have h8 : W8 m ρ c (Proc.devRef .tc main_arg8) = (m ((c : Thread nD τ).loc main_arg8)) := (W8_of_ne m ρ c main_arg8 (by decide)).trans h7
  have h9 : W9 m ρ c (Proc.devRef .tc main_arg8) = (m ((c : Thread nD τ).loc main_arg8)) := by
    show StableHlo.after hostOps4 (W8 m ρ c) (Proc.devRef .tc main_arg8) = _
    after_results_simp <;> exact h8
  exact h9

/-! ## The fifth launch: the classifier's hidden layer -/

/-- After the fifth launch its output array holds the reference's hidden layer. -/
theorem v102_W10 : W10 m ρ c (Proc.devRef .tc main_v102) = val_main_v111 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 3).trans ((RegionValue.final4 (V9 m ρ) c).trans ?_)
  show GcnStrips.denseClampHost _ _ 0x00000000#32 (W9 m ρ c (Proc.devRef .tc main_v100)) (W9 m ρ c (Proc.devRef .tc main_arg8))
    (W9 m ρ c (Proc.devRef .tc main_v101)) = _
  rw [v100_W9, arg8_W9, v101_W9]
  rfl

/-! ## The last host line and the sixth launch: the classifier's output layer -/

/-- The hidden layer is not written by the last host line. -/
theorem v102_W11 : W11 m ρ c (Proc.devRef .tc main_v102) = val_main_v111 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (W10 m ρ c) (Proc.devRef .tc main_v102) = _
  after_results_simp <;> exact v102_W10 m ρ c

/-- The classifier's second weights reach the sixth launch as launched. -/
theorem arg10_W11 : W11 m ρ c (Proc.devRef .tc main_arg10) = (m ((c : Thread nD τ).loc main_arg10)) := by
  have h0 : W0 m ρ c (Proc.devRef .tc main_arg10) = (m ((c : Thread nD τ).loc main_arg10)) := rfl
  have h1 : W1 m ρ c (Proc.devRef .tc main_arg10) = (m ((c : Thread nD τ).loc main_arg10)) := by
    show StableHlo.after hostOps0 (W0 m ρ c) (Proc.devRef .tc main_arg10) = _
    after_results_simp <;> exact h0
  have h2 : W2 m ρ c (Proc.devRef .tc main_arg10) = (m ((c : Thread nD τ).loc main_arg10)) := (W2_of_ne m ρ c main_arg10 (by decide)).trans h1
  have h3 : W3 m ρ c (Proc.devRef .tc main_arg10) = (m ((c : Thread nD τ).loc main_arg10)) := by
    show StableHlo.after hostOps1 (W2 m ρ c) (Proc.devRef .tc main_arg10) = _
    after_results_simp <;> exact h2
  have h4 : W4 m ρ c (Proc.devRef .tc main_arg10) = (m ((c : Thread nD τ).loc main_arg10)) := (W4_of_ne m ρ c main_arg10 (by decide)).trans h3
  have h5 : W5 m ρ c (Proc.devRef .tc main_arg10) = (m ((c : Thread nD τ).loc main_arg10)) := by
    show StableHlo.after hostOps2 (W4 m ρ c) (Proc.devRef .tc main_arg10) = _
    after_results_simp <;> exact h4
  have h6 : W6 m ρ c (Proc.devRef .tc main_arg10) = (m ((c : Thread nD τ).loc main_arg10)) := (W6_of_ne m ρ c main_arg10 (by decide)).trans h5
  have h7 : W7 m ρ c (Proc.devRef .tc main_arg10) = (m ((c : Thread nD τ).loc main_arg10)) := by
    show StableHlo.after hostOps3 (W6 m ρ c) (Proc.devRef .tc main_arg10) = _
    after_results_simp <;> exact h6
  have h8 : W8 m ρ c (Proc.devRef .tc main_arg10) = (m ((c : Thread nD τ).loc main_arg10)) := (W8_of_ne m ρ c main_arg10 (by decide)).trans h7
  have h9 : W9 m ρ c (Proc.devRef .tc main_arg10) = (m ((c : Thread nD τ).loc main_arg10)) := by
    show StableHlo.after hostOps4 (W8 m ρ c) (Proc.devRef .tc main_arg10) = _
    after_results_simp <;> exact h8
  have h10 : W10 m ρ c (Proc.devRef .tc main_arg10) = (m ((c : Thread nD τ).loc main_arg10)) := (W10_of_ne m ρ c main_arg10 (by decide)).trans h9
  have h11 : W11 m ρ c (Proc.devRef .tc main_arg10) = (m ((c : Thread nD τ).loc main_arg10)) := by
    show StableHlo.after hostOps5 (W10 m ρ c) (Proc.devRef .tc main_arg10) = _
    after_results_simp <;> exact h10
  exact h11

/-- The classifier's second bias reaches the last host line as launched. -/
theorem arg11_W10 : W10 m ρ c (Proc.devRef .tc main_arg11) = (m ((c : Thread nD τ).loc main_arg11)) := by
  have h0 : W0 m ρ c (Proc.devRef .tc main_arg11) = (m ((c : Thread nD τ).loc main_arg11)) := rfl
  have h1 : W1 m ρ c (Proc.devRef .tc main_arg11) = (m ((c : Thread nD τ).loc main_arg11)) := by
    show StableHlo.after hostOps0 (W0 m ρ c) (Proc.devRef .tc main_arg11) = _
    after_results_simp <;> exact h0
  have h2 : W2 m ρ c (Proc.devRef .tc main_arg11) = (m ((c : Thread nD τ).loc main_arg11)) := (W2_of_ne m ρ c main_arg11 (by decide)).trans h1
  have h3 : W3 m ρ c (Proc.devRef .tc main_arg11) = (m ((c : Thread nD τ).loc main_arg11)) := by
    show StableHlo.after hostOps1 (W2 m ρ c) (Proc.devRef .tc main_arg11) = _
    after_results_simp <;> exact h2
  have h4 : W4 m ρ c (Proc.devRef .tc main_arg11) = (m ((c : Thread nD τ).loc main_arg11)) := (W4_of_ne m ρ c main_arg11 (by decide)).trans h3
  have h5 : W5 m ρ c (Proc.devRef .tc main_arg11) = (m ((c : Thread nD τ).loc main_arg11)) := by
    show StableHlo.after hostOps2 (W4 m ρ c) (Proc.devRef .tc main_arg11) = _
    after_results_simp <;> exact h4
  have h6 : W6 m ρ c (Proc.devRef .tc main_arg11) = (m ((c : Thread nD τ).loc main_arg11)) := (W6_of_ne m ρ c main_arg11 (by decide)).trans h5
  have h7 : W7 m ρ c (Proc.devRef .tc main_arg11) = (m ((c : Thread nD τ).loc main_arg11)) := by
    show StableHlo.after hostOps3 (W6 m ρ c) (Proc.devRef .tc main_arg11) = _
    after_results_simp <;> exact h6
  have h8 : W8 m ρ c (Proc.devRef .tc main_arg11) = (m ((c : Thread nD τ).loc main_arg11)) := (W8_of_ne m ρ c main_arg11 (by decide)).trans h7
  have h9 : W9 m ρ c (Proc.devRef .tc main_arg11) = (m ((c : Thread nD τ).loc main_arg11)) := by
    show StableHlo.after hostOps4 (W8 m ρ c) (Proc.devRef .tc main_arg11) = _
    after_results_simp <;> exact h8
  have h10 : W10 m ρ c (Proc.devRef .tc main_arg11) = (m ((c : Thread nD τ).loc main_arg11)) := (W10_of_ne m ρ c main_arg11 (by decide)).trans h9
  exact h10

/-- The classifier's second bias, reshaped to a row, is the reference's broadcast of it along a new axis. -/
theorem v103_W11 : W11 m ρ c (Proc.devRef .tc main_v103) = val_main_v113 (m ((c : Thread nD τ).loc main_arg11)) := by
  show StableHlo.after hostOps5 (W10 m ρ c) (Proc.devRef .tc main_v103) = _
  after_results_simp
  rw [arg11_W10]
  exact (show _ = shapeCast S1x1 (m ((c : Thread nD τ).loc main_arg11)) shapeCasts_S1_S1x1 from rfl).trans
    (RowCast.shapeCast_row_eq_broadcastInDim (n := 1) _ _ (by decide))

/-- After the sixth launch the result array holds the reference's result of the twelve argument arrays. -/
theorem v104_W12 : W12 m ρ c (Proc.devRef .tc main_v104) = val_main_v115 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 3).trans ((RegionValue.final5 (V11 m ρ) c).trans ?_)
  show GcnStrips.denseHost _ (W11 m ρ c (Proc.devRef .tc main_v102)) (W11 m ρ c (Proc.devRef .tc main_arg10))
    (W11 m ρ c (Proc.devRef .tc main_v103)) = _
  rw [v102_W11, arg10_W11, v103_W11]
  rfl

end Cert.KernelIdeal.Walk

end
-- ==== Proof.lean ====
/-
  A graph-convolution network on TPU against its plain reference: the two programs compute one function.

  The kernel's program runs two graph-convolution layers, a mean pool over the graphs and a two-layer classifier. Its
  dense steps are six kernel launches — X · W and H₁ · W on strips of 5000 rows, the two layers' epilogues
  max (aggregate + D · H + b, 0) on the same strips, and the classifier's two layers on one block each —, and the
  irregular steps (degrees, edge normalisation, gather, segment sums, pooling) are host lines, the same lines the
  reference runs. Over the extended reals a change of float format is the identity, a strip of a product is the strip
  of the whole product, a sum with the zero bias row is the sum, and a vector reshaped to a row or a column is the
  vector broadcast along a new axis. So every launch leaves the array the reference's corresponding lines compute,
  and, walking the program's buffers from the launch to the return, the result array ends at the reference's result
  as a function of the twelve argument arrays. No identity used moves a factor across a sum or cancels anything, so
  the precondition (finite inputs) is never opened.

  The three frames: the two kernel programs' frames are the generated frame certificates; the reference's frame is
  its generated run with the result dropped. The idealization rewrote no operation, so it preserves trivially.
-/
import proofs.«173289_j28913719837314_1_alg».proof.Defs
import proofs.«173289_j28913719837314_1_alg».proof.Proof.Gen.Kernel
import proofs.«173289_j28913719837314_1_alg».proof.Proof.Gen.Kernel.Skeleton
import proofs.«173289_j28913719837314_1_alg».proof.Proof.Gen.Kernel.Launch
import proofs.«173289_j28913719837314_1_alg».proof.Proof.Gen.Kernel.Points
import proofs.«173289_j28913719837314_1_alg».proof.Proof.Gen.Kernel.Frame
import proofs.«173289_j28913719837314_1_alg».proof.Proof.Gen.KernelIdeal
import proofs.«173289_j28913719837314_1_alg».proof.Proof.Gen.KernelIdeal.Skeleton
import proofs.«173289_j28913719837314_1_alg».proof.Proof.Gen.KernelIdeal.Launch
import proofs.«173289_j28913719837314_1_alg».proof.Proof.Gen.KernelIdeal.Points
import proofs.«173289_j28913719837314_1_alg».proof.Proof.Gen.KernelIdeal.Frame
import proofs.«173289_j28913719837314_1_alg».proof.Proof.Gen.ReferenceIdeal
import proofs.«173289_j28913719837314_1_alg».proof.Proof.Gen.Pre_finite_inputs
import proofs.«173289_j28913719837314_1_alg».proof.Proof.Gen.ReferenceIdeal.Run
import proofs.«173289_j28913719837314_1_alg».proof.Proof.Gen.ReferenceIdeal.Read
import proofs.«173289_j28913719837314_1_alg».proof.Proof.KernelRun
import proofs.«173289_j28913719837314_1_alg».proof.Proof.Walk3
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs run, and the kernel's result array ends at the
    reference's result of the argument arrays. -/
theorem algebraic : Cert.algebraic_KernelIdeal_ReferenceIdeal := by
  intro m ρ m' ρ' _ hagree
  refine ⟨fun c => Cert.KernelIdeal.Gen.W12 m ρ c (Proc.devRef .tc Cert.KernelIdeal.main_v104),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v115_eq, e0, e1, e2, e3, e4, e5, e6, e7, e8, e9, e10, e11]
  exact (Cert.KernelIdeal.Walk.v104_W12 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
